-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x40 .f32) (main_arg5 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x256 : Shape := ⟨2, ![2000, 256]⟩
abbrev S2000x128 : Shape := ⟨2, ![2000, 128]⟩
abbrev S1700000x128 : Shape := ⟨2, ![1700000, 128]⟩
abbrev S1x128 : Shape := ⟨2, ![1, 128]⟩
abbrev S100000x40 : Shape := ⟨2, ![100000, 40]⟩
abbrev S2000x40 : Shape := ⟨2, ![2000, 40]⟩
abbrev S1700000x40 : Shape := ⟨2, ![1700000, 40]⟩
abbrev S1x40 : Shape := ⟨2, ![1, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 130
  | .vmem => 14
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x40, .f32⟩
  | 5 => ⟨S40, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S100000x128, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000, .i32⟩
  | 70 => ⟨S1x1600000, .i32⟩
  | 71 => ⟨S1600000, .i32⟩
  | 72 => ⟨S1700000, .i32⟩
  | 73 => ⟨S1x1600000, .i32⟩
  | 74 => ⟨S1600000, .i32⟩
  | 75 => ⟨S1700000, .i32⟩
  | 76 => ⟨S_, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S100000x40, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x40, .f32⟩
  | 119 => ⟨S1700000x1, .f32⟩
  | 120 => ⟨S1700000x40, .f32⟩
  | 121 => ⟨S1700000x40, .f32⟩
  | 122 => ⟨S_, .f32⟩
  | 123 => ⟨S100000x40, .f32⟩
  | 124 => ⟨S1700000x1, .i32⟩
  | 125 => ⟨S100000x40, .f32⟩
  | 126 => ⟨S1x40, .f32⟩
  | 127 => ⟨S100000x40, .f32⟩
  | _ => ⟨S100000x256, .f32⟩

abbrev hbmTy0_1 (i : Nat) : BufTy := match i % 128 with
  | 0 => ⟨S100000x40, .f32⟩
  | 1 => ⟨S100000x40, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x40, .f32⟩
  | .local _ .vmem, ⟨8, _⟩ => ⟨S2000x40, .f32⟩
  | .local _ .vmem, ⟨9, _⟩ => ⟨S2000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S2000x128_S2000x128 : S2000x128.ShapeCasts S2000x128
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  inb_S5000x40_S5000x40_0_0 : ∀ a, (![0, 0] : Fin 2 → Nat) a + S5000x40.size a ≤ S5000x40.size a
  h_S5000x40 : 0 < S5000x40.numel
  shapeCasts_S5000x40_S5000x40 : S5000x40.ShapeCasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x256_S256x128_S2000x128_1_0_0_1_n_n_wf : DotDims.WF S2000x256 S256x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x40_S2000x40_1_0_0_1_n_n_wf : DotDims.WF S2000x128 S128x40 S2000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x40.size a ≤ S128x40.size a
  hwx1_1 : ∀ i : grid1.Coords, EltTy.bits .f32 = 32 ∨ (Rect.block (s := S128x40) S128x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x40.size a ≤ S100000x40.size a
  hwx1_2 : ∀ i : grid1.Coords, EltTy.bits .f32 = 32 ∨ (Rect.block (s := S100000x40) S2000x40.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x40.size a ≤ S100000x40.size a
  hwx2_1 : ∀ i : grid2.Coords, EltTy.bits .f32 = 32 ∨ (Rect.block (s := S100000x40) S5000x40.size (cc2_transform_1 i) (hinb2_1 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v78) S2000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v94) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v95) S5000x40.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 144
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x40, .f32⟩
  | 5 => ⟨S40, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S100000x128, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000, .i32⟩
  | 70 => ⟨S1x1600000, .i32⟩
  | 71 => ⟨S1600000, .i32⟩
  | 72 => ⟨S1700000, .i32⟩
  | 73 => ⟨S1x1600000, .i32⟩
  | 74 => ⟨S1600000, .i32⟩
  | 75 => ⟨S1700000, .i32⟩
  | 76 => ⟨S_, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S100000x40, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x40, .f32⟩
  | 119 => ⟨S1700000x1, .f32⟩
  | 120 => ⟨S1700000x40, .f32⟩
  | 121 => ⟨S1700000x40, .f32⟩
  | 122 => ⟨S_, .f32⟩
  | 123 => ⟨S100000x40, .f32⟩
  | 124 => ⟨S1700000x1, .i32⟩
  | 125 => ⟨S100000x40, .f32⟩
  | 126 => ⟨S1x40, .f32⟩
  | 127 => ⟨S100000x40, .f32⟩
  | _ => ⟨S100000x256, .f32⟩

abbrev hbmTy0_1 (i : Nat) : BufTy := match i % 128 with
  | 0 => ⟨S100000x40, .f32⟩
  | 1 => ⟨S_, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x40, .f32⟩
  | 8 => ⟨S100000x40, .f32⟩
  | 9 => ⟨S100000x40, .f32⟩
  | 10 => ⟨S_, .f32⟩
  | 11 => ⟨S100000, .f32⟩
  | 12 => ⟨S100000x1, .f32⟩
  | 13 => ⟨S100000x1, .f32⟩
  | 14 => ⟨S100000x40, .f32⟩
  | 15 => ⟨S100000x40, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The idealized kernel program's run, with its RESULT kept.

  The program is three pallas_calls among stretches of host operations. Its execution is cut at the
  boundaries between stretches and calls; at each boundary every unscoped buffer of a core holds the
  contents `Gen.W0 … Gen.W12` (a stretch maps the contents through its operations; a call replaces its
  arrays by what its write-backs leave and keeps every other buffer). At the last boundary the returned
  buffer therefore holds `Gen.W12` read at that buffer, and every argument holds what it was launched
  with. This module states exactly that: every weakly fair execution terminates, without a fault, with
  the returned buffer at `W12`'s value there and the six arguments unchanged.
-/
import proofs.«141688_j6828998000936_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the returned buffer ends at the last
    boundary's contents read there, and each argument ends as launched. -/
theorem run_named : θ_run defs (onTc (τ := τ) (main (F := F))) ⟨m, fun _ => 0, ρ⟩ (fun r => ∀ c : Dev nD,
      r.2.mem ((c.tc : Thread nD τ).loc main_v95) = W12 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v95 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c)⟩)

end Cert.KernelIdeal.Whole

end
-- ==== Proof.Stages.lean ====
/-
  The stages of the two-layer graph convolution, as pure functions of arrays.

  Both programs compute, from node features x : [N, 256] (N = 100000), an edge list e : [2, E] (E = 1600000) and
  weights W₁ b₁ W₂ b₂:
    src, dst  — row 0 and row 1 of e, each followed by 0 … N−1 (a self loop per node), length E + N;
    deg       — the number of listed edges arriving at each node: ones scatter-added at dst into zeros;
    dinv      — deg^(-1/2) where deg > 0, else 0;
    norm      — per edge, dinv at its source times dinv at its target (negative indices counted from the end);
    one layer — h ↦ (rows of h gathered at src, each scaled by its edge's norm, scatter-added at dst into zeros) + b;
    between the layers a maximum with 0; and at the end, row by row over the 40 classes,
    y ↦ (y − max y) − log Σ exp (y − max y).
  The two programs differ only in how the products h = x·W are taken (and in how the last row operation is
  taken), so everything else is named here ONCE and both sides are stated through these names. Each definition
  takes the arrays it reads as parameters; nothing is evaluated.
-/
import proofs.«141688_j6828998000936_1_alg».proof.Proof.Gen.ReferenceIdeal

noncomputable section

namespace Cert.Gcn

open Cert.ReferenceIdeal Cert.ReferenceIdeal.Gen Idealize.ShloMosaic Idealize.ShloMosaic.TcCoe Idealize.SL.Sem Idealize.ShloMosaic.StableHlo

variable {F : FTy → Type} [FloatOps F]

/-- Row `r` of the edge list followed by the self loops 0 … N−1. -/
def endsOf (r : Nat) (hs : S2x1600000.Slices ![r, 0] S1x1600000) (e : (⟨S2x1600000, .i32⟩ : BufTy).Contents (Elt F)) : (⟨S1700000, .i32⟩ : BufTy).Contents (Elt F) :=
  concatenate S1700000 0 [⟨S1600000, (shapeCast _ (extractStridedSlice S1x1600000 ![r, 0] e hs) shapeCasts_S1x1600000_S1600000)⟩, ⟨S100000, (iotaInDim S100000 32 0)⟩] concatenates_S1600000_S100000_S1700000_d0

/-- The edges' sources (row 0) with the self loops. -/
def srcOf (e : (⟨S2x1600000, .i32⟩ : BufTy).Contents (Elt F)) : (⟨S1700000, .i32⟩ : BufTy).Contents (Elt F) := endsOf (F := F) 0 slices_S2x1600000_S1x1600000_0_0 e
/-- The edges' targets (row 1) with the self loops. -/
def dstOf (e : (⟨S2x1600000, .i32⟩ : BufTy).Contents (Elt F)) : (⟨S1700000, .i32⟩ : BufTy).Contents (Elt F) := endsOf (F := F) 1 slices_S2x1600000_S1x1600000_1_0 e

/-- An index list with its negative entries counted from the end (N added). -/
def wrapIdx (s : (⟨S1700000, .i32⟩ : BufTy).Contents (Elt F)) : (⟨S1700000, .i32⟩ : BufTy).Contents (Elt F) :=
  select (cmpi .slt s (broadcastInDim S1700000 ![] bcast_S_S1700000 (constantI S_ 32 0#32))) (addi s (broadcastInDim S1700000 ![] bcast_S_S1700000 (constantI S_ 32 100000#32))) s

/-- How many listed edges arrive at each node. -/
def degOf (dst : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32))

/-- deg^(-1/2) where the degree is positive, else 0. -/
def dinvOf (dst : (⟨S1700000, .i32⟩ : BufTy).Contents (Elt F)) : (⟨S100000, .f32⟩ : BufTy).Contents (Elt F) :=
  select (cmpf (F := F) .ogt (degOf (F := F) dst) (broadcastInDim S100000 ![] bcast_S_S100000 (constant S_ .f32 0x00000000#32))) (Host.rsqrt (degOf (F := F) dst)) (broadcastInDim S100000 ![] bcast_S_S100000 (id (constant S_ .f32 0x00000000#32)))

/-- Per edge: dinv at its source times dinv at its target. -/
def normOf (src dst : (⟨S1700000, .i32⟩ : BufTy).Contents (Elt F)) : (⟨S1700000, .f32⟩ : BufTy).Contents (Elt F) :=
  mulf (Host.gather gather_S100000_S1700000x1_S1700000_n_0_n_n_0_1_1 (dinvOf (F := F) dst) (broadcastInDim S1700000x1 ![0] bcast_S1700000_S1700000x1_0 (wrapIdx (F := F) src))) (Host.gather gather_S100000_S1700000x1_S1700000_n_0_n_n_0_1_1 (dinvOf (F := F) dst) (broadcastInDim S1700000x1 ![0] bcast_S1700000_S1700000x1_0 (wrapIdx (F := F) dst)))

/-- The first layer's aggregation: rows of `h` gathered at the sources, scaled by the edge norm, summed at the targets, plus the bias. -/
def agg128 (h : (⟨S100000x128, .f32⟩ : BufTy).Contents (Elt F)) (src dst : (⟨S1700000, .i32⟩ : BufTy).Contents (Elt F)) (nrm : (⟨S1700000, .f32⟩ : BufTy).Contents (Elt F)) (b : (⟨S128, .f32⟩ : BufTy).Contents (Elt F)) : (⟨S100000x128, .f32⟩ : BufTy).Contents (Elt F) :=
  addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 dst) (mulf (Host.gather gather_S100000x128_S1700000x1_S1700000x128_1_0_n_n_0_1_1128 h (broadcastInDim S1700000x1 ![0] bcast_S1700000_S1700000x1_0 (wrapIdx (F := F) src))) (broadcastInDim S1700000x128 ![0, 1] bcast_S1700000x1_S1700000x128_0_1 (broadcastInDim S1700000x1 ![0] bcast_S1700000_S1700000x1_0 nrm)))) (broadcastInDim S100000x128 ![0, 1] bcast_S1x128_S100000x128_0_1 (broadcastInDim S1x128 ![1] bcast_S128_S1x128_1 b))

/-- The maximum with 0 between the layers. -/
def relu128 (y : (⟨S100000x128, .f32⟩ : BufTy).Contents (Elt F)) : (⟨S100000x128, .f32⟩ : BufTy).Contents (Elt F) :=
  maximumf y (broadcastInDim S100000x128 ![] bcast_S_S100000x128 (constant S_ .f32 0x00000000#32))

/-- The second layer's aggregation, on 40 columns. -/
def agg40 (h : (⟨S100000x40, .f32⟩ : BufTy).Contents (Elt F)) (src dst : (⟨S1700000, .i32⟩ : BufTy).Contents (Elt F)) (nrm : (⟨S1700000, .f32⟩ : BufTy).Contents (Elt F)) (b : (⟨S40, .f32⟩ : BufTy).Contents (Elt F)) : (⟨S100000x40, .f32⟩ : BufTy).Contents (Elt F) :=
  addf (Host.scatterAdd scatter_S100000x40_S1700000x1_S1700000x40_1_0_0_1 (broadcastInDim S100000x40 ![] bcast_S_S100000x40 (constant S_ .f32 0x00000000#32)) (broadcastInDim S1700000x1 ![0] bcast_S1700000_S1700000x1_0 dst) (mulf (Host.gather gather_S100000x40_S1700000x1_S1700000x40_1_0_n_n_0_1_140 h (broadcastInDim S1700000x1 ![0] bcast_S1700000_S1700000x1_0 (wrapIdx (F := F) src))) (broadcastInDim S1700000x40 ![0, 1] bcast_S1700000x1_S1700000x40_0_1 (broadcastInDim S1700000x1 ![0] bcast_S1700000_S1700000x1_0 nrm)))) (broadcastInDim S100000x40 ![0, 1] bcast_S1x40_S100000x40_0_1 (broadcastInDim S1x40 ![1] bcast_S40_S1x40_1 b))

/-- A row's maximum (against −∞), repeated along the row. -/
def rowMax (y : (⟨S100000x40, .f32⟩ : BufTy).Contents (Elt F)) : (⟨S100000x40, .f32⟩ : BufTy).Contents (Elt F) :=
  broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf y (constant S_ .f32 0xFF800000#32) reducesTo_S100000x40_S100000_d1 h_S_)))

/-- Row by row: (y − max y) − log Σ exp (y − max y). -/
def logSoftmaxRows (y : (⟨S100000x40, .f32⟩ : BufTy).Contents (Elt F)) : (⟨S100000x40, .f32⟩ : BufTy).Contents (Elt F) :=
  subf (subf y (rowMax (F := F) y)) (broadcastInDim S100000x40 ![0, 1] bcast_S100000x1_S100000x40_0_1 (Host.log (broadcastInDim S100000x1 ![0] bcast_S100000_S100000x1_0 (Host.reduceAdd (Host.exp (subf y (rowMax (F := F) y))) (constant S_ .f32 0x00000000#32) reducesTo_S100000x40_S100000_d1 h_S_))))

/-- The whole computation, the two products taken as the host's `dot_general`. -/
def whole (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F)) : (⟨S100000x40, .f32⟩ : BufTy).Contents (Elt F) :=
  logSoftmaxRows (F := F)
    (agg40 (F := F)
      (Host.dotGeneral dot_S100000x128_S128x40_S100000x40_1_0_0_1_n_n none
        (relu128 (F := F) (agg128 (F := F) (Host.dotGeneral dot_S100000x256_S256x128_S100000x128_1_0_0_1_n_n none x0 x2)
          (srcOf (F := F) x1) (dstOf (F := F) x1) (normOf (F := F) (srcOf (F := F) x1) (dstOf (F := F) x1)) x3)) x4)
      (srcOf (F := F) x1) (dstOf (F := F) x1) (normOf (F := F) (srcOf (F := F) x1) (dstOf (F := F) x1)) x5)

end Cert.Gcn

end
-- ==== Proof.Stretches.lean ====
/-
  The host operations between the kernel program's three calls, read as the stages of the graph convolution.

  The program's host lines fall into three stretches: before the first call (the edge lists, the degrees, the
  per-edge norm), between the first and the second call (the first layer's aggregation of the transformed features,
  the bias, the maximum with 0 — and the edge lists and the norm computed once more for the second layer), and between
  the second and the third call (the second layer's aggregation and bias). Each lemma below says what ONE buffer holds
  after a stretch as a stage (Stages.lean) of what the buffers it reads held before the stretch, for ANY contents
  `Wa` the stretch starts from: so the contents at a boundary are never opened, only passed along.
-/
import proofs.«141688_j6828998000936_1_alg».proof.Proof.Gen.KernelIdeal.Launch
import proofs.«141688_j6828998000936_1_alg».proof.Proof.Stages
import Idealize.ShloMosaic.Lib.StableHlo.Run

set_option maxRecDepth 16384

noncomputable section

namespace Cert.KernelIdeal.Stretches

open Idealize.ShloMosaic Idealize.ShloMosaic.TcCoe Idealize.SL.Sem Idealize.ShloMosaic.StableHlo
open Cert.KernelIdeal Cert.KernelIdeal.Gen

variable {F : FTy → Type} [FloatOps F]
variable (Wa : Valuation τ sig (Elt F))

/-- The contents after the stretch before the first call. -/
abbrev pre : Valuation τ sig (Elt F) := after hostOps0_2 (after hostOps0_1 (after hostOps0 Wa))
/-- The contents after the stretch between the first and the second call. -/
abbrev mid : Valuation τ sig (Elt F) := after hostOps1_4 (after hostOps1_3 (after hostOps1_2 (after hostOps1_1 (after hostOps1 Wa))))
/-- The contents after the stretch between the second and the third call. -/
abbrev tail : Valuation τ sig (Elt F) := after hostOps2 Wa

/-! ## Before the first call -/

theorem pre_src : pre Wa (Proc.devRef .tc main_v3) = Cert.Gcn.srcOf (F := F) (Wa (Proc.devRef .tc main_arg1)) := by
  simp only [pre, hostOps0, hostOps0_1, hostOps0_2]
  after_results_simp
  rfl

theorem pre_dst : pre Wa (Proc.devRef .tc main_v6) = Cert.Gcn.dstOf (F := F) (Wa (Proc.devRef .tc main_arg1)) := by
  simp only [pre, hostOps0, hostOps0_1, hostOps0_2]
  after_results_simp
  rfl

theorem pre_norm : pre Wa (Proc.devRef .tc main_v29)
    = Cert.Gcn.normOf (F := F) (Cert.Gcn.srcOf (F := F) (Wa (Proc.devRef .tc main_arg1))) (Cert.Gcn.dstOf (F := F) (Wa (Proc.devRef .tc main_arg1))) := by
  simp only [pre, hostOps0, hostOps0_1, hostOps0_2]
  after_results_simp
  rfl

theorem pre_arg0 : pre Wa (Proc.devRef .tc main_arg0) = Wa (Proc.devRef .tc main_arg0) := by
  simp only [pre, hostOps0, hostOps0_1, hostOps0_2]
  after_results_simp

theorem pre_arg1 : pre Wa (Proc.devRef .tc main_arg1) = Wa (Proc.devRef .tc main_arg1) := by
  simp only [pre, hostOps0, hostOps0_1, hostOps0_2]
  after_results_simp

theorem pre_arg2 : pre Wa (Proc.devRef .tc main_arg2) = Wa (Proc.devRef .tc main_arg2) := by
  simp only [pre, hostOps0, hostOps0_1, hostOps0_2]
  after_results_simp

theorem pre_arg3 : pre Wa (Proc.devRef .tc main_arg3) = Wa (Proc.devRef .tc main_arg3) := by
  simp only [pre, hostOps0, hostOps0_1, hostOps0_2]
  after_results_simp

theorem pre_arg4 : pre Wa (Proc.devRef .tc main_arg4) = Wa (Proc.devRef .tc main_arg4) := by
  simp only [pre, hostOps0, hostOps0_1, hostOps0_2]
  after_results_simp

theorem pre_arg5 : pre Wa (Proc.devRef .tc main_arg5) = Wa (Proc.devRef .tc main_arg5) := by
  simp only [pre, hostOps0, hostOps0_1, hostOps0_2]
  after_results_simp

/-! ## Between the first and the second call -/

theorem mid_h : mid Wa (Proc.devRef .tc main_v47)
    = Cert.Gcn.relu128 (F := F) (Cert.Gcn.agg128 (F := F) (Wa (Proc.devRef .tc main_v30)) (Wa (Proc.devRef .tc main_v3)) (Wa (Proc.devRef .tc main_v6)) (Wa (Proc.devRef .tc main_v29)) (Wa (Proc.devRef .tc main_arg3))) := by
  simp only [mid, hostOps1, hostOps1_1, hostOps1_2, hostOps1_3, hostOps1_4]
  after_results_simp
  rfl

theorem mid_src : mid Wa (Proc.devRef .tc main_v51) = Cert.Gcn.srcOf (F := F) (Wa (Proc.devRef .tc main_arg1)) := by
  simp only [mid, hostOps1, hostOps1_1, hostOps1_2, hostOps1_3, hostOps1_4]
  after_results_simp
  rfl

theorem mid_dst : mid Wa (Proc.devRef .tc main_v54) = Cert.Gcn.dstOf (F := F) (Wa (Proc.devRef .tc main_arg1)) := by
  simp only [mid, hostOps1, hostOps1_1, hostOps1_2, hostOps1_3, hostOps1_4]
  after_results_simp
  rfl

theorem mid_norm : mid Wa (Proc.devRef .tc main_v77)
    = Cert.Gcn.normOf (F := F) (Cert.Gcn.srcOf (F := F) (Wa (Proc.devRef .tc main_arg1))) (Cert.Gcn.dstOf (F := F) (Wa (Proc.devRef .tc main_arg1))) := by
  simp only [mid, hostOps1, hostOps1_1, hostOps1_2, hostOps1_3, hostOps1_4]
  after_results_simp
  rfl

theorem mid_arg4 : mid Wa (Proc.devRef .tc main_arg4) = Wa (Proc.devRef .tc main_arg4) := by
  simp only [mid, hostOps1, hostOps1_1, hostOps1_2, hostOps1_3, hostOps1_4]
  after_results_simp

theorem mid_arg5 : mid Wa (Proc.devRef .tc main_arg5) = Wa (Proc.devRef .tc main_arg5) := by
  simp only [mid, hostOps1, hostOps1_1, hostOps1_2, hostOps1_3, hostOps1_4]
  after_results_simp

/-! ## Between the second and the third call -/

theorem tail_y : tail Wa (Proc.devRef .tc main_v94)
    = Cert.Gcn.agg40 (F := F) (Wa (Proc.devRef .tc main_v78)) (Wa (Proc.devRef .tc main_v51)) (Wa (Proc.devRef .tc main_v54)) (Wa (Proc.devRef .tc main_v77)) (Wa (Proc.devRef .tc main_arg5)) := by
  simp only [tail, hostOps2]
  after_results_simp
  rfl

end Cert.KernelIdeal.Stretches

end
-- ==== Proof.Transform1.lean ====
/-
  The first feature transform x·W₁, call by call.

  The call tiles the 100000 rows of its left operand into 50 blocks of 2000 rows; the right operand (256 × 128) is one
  block, the same at every grid point. At grid point t the body loads rows 2000·t … 2000·t + 1999 of the left operand and the
  whole right operand, narrows both to bf16 (at the extended reals a change of format is the identity), takes their
  matrix product into a zero accumulator and stores it as rows 2000·t … of the result. Entry (r, j) of that block is
  Σ_k left(2000·t + r, k) · right(k, j): exactly entry (2000·t + r, j) of the product of the WHOLE arrays, which is how the
  host's `dot_general` reads at an index. The blocks tile the result, so after the call the result array is the host's
  product of the two arrays the call found — whatever those arrays are (`V` is a parameter).
-/
import proofs.«141688_j6828998000936_1_alg».proof.Proof.Gen.KernelIdeal.Frame
import proofs.«141688_j6828998000936_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Transform1

open Idealize.ShloMosaic Idealize.ShloMosaic.TcCoe Idealize.SL.Sem
open Idealize.ShloMosaic.Pipeline (Dat Cfg Window)
open Cert.KernelIdeal Cert.KernelIdeal.Gen

/-- The kernel body's dot: a [2000, 256] block times the [256, 128] operand. -/
local notation "dK" => dot_S2000x256_S256x128_S2000x128_1_0_0_1_n_n
/-- The host's dot: the whole [100000, 256] array times the [256, 128] operand. -/
local notation "dR" => Cert.ReferenceIdeal.dot_S100000x256_S256x128_S100000x128_1_0_0_1_n_n

/-- The host's product of the whole left array with the right operand. -/
abbrev hostProd (a : FVec Ideal S100000x256 .f32) (w : FVec Ideal S256x128 .f32) : FVec Ideal S100000x128 .f32 :=
  Host.dotGeneral (F := Ideal) (dR) none a w

/-! ## The two products at an index -/

/-- Row `j 0` of a block, column `k`. -/
abbrev lk (j : S2000x128.Idx) (k : Fin 256) : S2000x256.Idx := fun a => match a with
  | ⟨0, _⟩ => ⟨(j 0).val, (j 0).isLt⟩
  | ⟨1, _⟩ => ⟨k.val, k.isLt⟩
/-- Row `k`, column `j 1` of the right operand. -/
abbrev rk (j : S2000x128.Idx) (k : Fin 256) : S256x128.Idx := fun a => match a with
  | ⟨0, _⟩ => ⟨k.val, k.isLt⟩
  | ⟨1, _⟩ => ⟨(j 1).val, (j 1).isLt⟩
/-- Row `i 0` of the whole left array, column `k`. -/
abbrev lR (i : S100000x128.Idx) (k : Fin 256) : S100000x256.Idx := fun a => match a with
  | ⟨0, _⟩ => ⟨(i 0).val, (i 0).isLt⟩
  | ⟨1, _⟩ => ⟨k.val, k.isLt⟩
/-- Row `k`, column `i 1` of the right operand. -/
abbrev rR (i : S100000x128.Idx) (k : Fin 256) : S256x128.Idx := fun a => match a with
  | ⟨0, _⟩ => ⟨k.val, k.isLt⟩
  | ⟨1, _⟩ => ⟨(i 1).val, (i 1).isLt⟩

theorem lhsK_0 (j : S2000x128.Idx) (q : (dK).contr.Idx) : ((dK).lhsIdx j q 0).val = (j 0).val := by
  unfold DotDims.lhsIdx
  rw [dif_neg (show ¬(0 : Fin S2000x256.rank) ∈ (dK).lhsBatch by decide), dif_pos (show (0 : Fin S2000x256.rank) ∈ (dK).lhsNonContracting by decide)]
  rfl
theorem lhsK_1 (j : S2000x128.Idx) (q : (dK).contr.Idx) : ((dK).lhsIdx j q 1).val = (q ⟨0, by decide⟩).val :=
  (dK).lhsIdx_val_of_single rfl j q
theorem rhsK_0 (j : S2000x128.Idx) (q : (dK).contr.Idx) : ((dK).rhsIdx j q 0).val = (q ⟨0, by decide⟩).val :=
  (dK).rhsIdx_val_of_single rfl j q
theorem rhsK_1 (j : S2000x128.Idx) (q : (dK).contr.Idx) : ((dK).rhsIdx j q 1).val = (j 1).val := by
  unfold DotDims.rhsIdx
  rw [dif_neg (show ¬(1 : Fin S256x128.rank) ∈ (dK).rhsBatch by decide), dif_pos (show (1 : Fin S256x128.rank) ∈ (dK).rhsNonContracting by decide)]
  rfl

theorem lhsR_0 (i : S100000x128.Idx) (q : (dR).contr.Idx) : ((dR).lhsIdx i q 0).val = (i 0).val := by
  unfold DotDims.lhsIdx
  rw [dif_neg (show ¬(0 : Fin S100000x256.rank) ∈ (dR).lhsBatch by decide), dif_pos (show (0 : Fin S100000x256.rank) ∈ (dR).lhsNonContracting by decide)]
  rfl
theorem lhsR_1 (i : S100000x128.Idx) (q : (dR).contr.Idx) : ((dR).lhsIdx i q 1).val = (q ⟨0, by decide⟩).val :=
  (dR).lhsIdx_val_of_single rfl i q
theorem rhsR_0 (i : S100000x128.Idx) (q : (dR).contr.Idx) : ((dR).rhsIdx i q 0).val = (q ⟨0, by decide⟩).val :=
  (dR).rhsIdx_val_of_single rfl i q
theorem rhsR_1 (i : S100000x128.Idx) (q : (dR).contr.Idx) : ((dR).rhsIdx i q 1).val = (i 1).val := by
  unfold DotDims.rhsIdx
  rw [dif_neg (show ¬(1 : Fin S256x128.rank) ∈ (dR).rhsBatch by decide), dif_pos (show (1 : Fin S256x128.rank) ∈ (dR).rhsNonContracting by decide)]
  rfl

/-- The body's stored value at entry `j` of the block: the sum over `k` of the loaded block at (j₀, k) times the loaded
    right operand at (k, j₁). -/
theorem pay_apply (x0 : Vec Ideal S2000x256 .f32) (x1 : Vec Ideal S256x128 .f32) (j : S2000x128.Idx) :
    k0_pay1 (F := Ideal) x0 x1 j = ∑ k : Fin 256, x0 (lk j k) * x1 (rk j k) := by
  show FloatOps.matmul (dK) none (truncf (F := Ideal) .bf16 x0 (by decide)) (truncf (F := Ideal) .bf16 x1 (by decide)) (constant (F := Ideal) S2000x128 .f32 0x00000000#32) j = _
  refine (Ideal.matmul_constant_zero_apply (dK) none (truncf (F := Ideal) .bf16 x0 (by decide)) (truncf (F := Ideal) .bf16 x1 (by decide)) j).trans ?_
  rw [← Equiv.sum_comp (ValueIdx.contrEquiv1 (dK) 256 rfl rfl).symm]
  refine Finset.sum_congr rfl fun k _ => ?_
  have hk := ValueIdx.contrEquiv1_symm_val (dK) 256 rfl rfl k
  have el : (dK).lhsIdx j ((ValueIdx.contrEquiv1 (dK) 256 rfl rfl).symm k) = lk j k := funext fun a => Fin.ext (by
    match a with
    | ⟨0, _⟩ => exact lhsK_0 _ _
    | ⟨1, _⟩ => exact (lhsK_1 _ _).trans hk)
  have er : (dK).rhsIdx j ((ValueIdx.contrEquiv1 (dK) 256 rfl rfl).symm k) = rk j k := funext fun a => Fin.ext (by
    match a with
    | ⟨0, _⟩ => exact (rhsK_0 _ _).trans hk
    | ⟨1, _⟩ => exact rhsK_1 _ _)
  rw [el, er]
  rfl

/-- The host's product of the whole arrays at entry `i`: the same sum over `k`. -/
theorem host_apply (a : FVec Ideal S100000x256 .f32) (w : FVec Ideal S256x128 .f32) (i : S100000x128.Idx) :
    hostProd a w i = ∑ k : Fin 256, a (lR i k) * w (rR i k) := by
  simp only [hostProd, Host.dotGeneral]
  rw [Ideal.dotGeneral_apply, ← Equiv.sum_comp (ValueIdx.contrEquiv1 (dR) 256 rfl rfl).symm]
  refine Finset.sum_congr rfl fun k _ => ?_
  have hk := ValueIdx.contrEquiv1_symm_val (dR) 256 rfl rfl k
  have el : (dR).lhsIdx i ((ValueIdx.contrEquiv1 (dR) 256 rfl rfl).symm k) = lR i k := funext fun a => Fin.ext (by
    match a with
    | ⟨0, _⟩ => exact lhsR_0 _ _
    | ⟨1, _⟩ => exact (lhsR_1 _ _).trans hk)
  have er : (dR).rhsIdx i ((ValueIdx.contrEquiv1 (dR) 256 rfl rfl).symm k) = rR i k := funext fun a => Fin.ext (by
    match a with
    | ⟨0, _⟩ => exact (rhsR_0 _ _).trans hk
    | ⟨1, _⟩ => exact rhsR_1 _ _)
  rw [el, er]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the left operand's block moves down with the result's block and
    starts at column 0; the right operand's block is always the whole operand; the result's block starts at column 0. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every block of rows is some grid point's. -/
theorem idx_onto : ∀ (q0 : Fin 50), ∃ t : Fin cfg0.N, win0_2.index t = ![q0.val, 0] :=
  (by decide +kernel : ∀ (q0 : Fin 50), ∃ t : Fin grid0.N, win0_2.index t = ![q0.val, 0])

/-- WHAT GRID POINT `t` WRITES BACK is block `t` of the host's product of the two arrays the call found. -/
theorem flushed_eq (c : Dev nD) (t : Fin cfg0.N) :
    (dat0 (F := Ideal) V c).flushed 2 t
      = ((cfg0.win 2).blk t).view.read (Elt Ideal) (hostProd (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S2000x256) hz, View.ld_unit_zero (S := S256x128) hz]
  obtain ⟨e0, e1, e2, e3, e4⟩ := idx_facts t
  funext j
  show k0_pay1 (F := Ideal) (iblk0 V c 0 t) (iblk0 V c 1 t) j
      = hostProd (V c main_arg0) (V c main_arg2) (((cfg0.win 2).blk t).view.emb j)
  refine (pay_apply (iblk0 V c 0 t) (iblk0 V c 1 t) j).trans ?_
  refine Eq.trans ?_ (host_apply (V c main_arg0) (V c main_arg2) (((cfg0.win 2).blk t).view.emb j)).symm
  refine Finset.sum_congr rfl fun k _ => ?_
  have h0 : iblk0 V c 0 t (lk j k) = V c main_arg0 (lR (((cfg0.win 2).blk t).view.emb j) k) := by
    show V c main_arg0 (((cfg0.win 0).blk t).view.emb (lk j k)) = V c main_arg0 (lR (((cfg0.win 2).blk t).view.emb j) k)
    refine congrArg (V c main_arg0) ?_
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  have h1 : iblk0 V c 1 t (rk j k) = V c main_arg2 (rR (((cfg0.win 2).blk t).view.emb j) k) := by
    show V c main_arg2 (((cfg0.win 1).blk t).view.emb (rk j k)) = V c main_arg2 (rR (((cfg0.win 2).blk t).view.emb j) k)
    refine congrArg (V c main_arg2) ?_
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  rw [h0, h1]

/-- An index of the result array is in grid point `t`'s block iff each coordinate is in the block's range on its axis. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- Every index of the result array is in some grid point's block: row r is in block r / 2000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- THE RESULT ARRAY after the call: the host's product of the two arrays the call found. -/
theorem final (c : Dev nD) :
    (dat0 (F := Ideal) V c).arrAt 2 cfg0.N = hostProd (V c main_arg0) (V c main_arg2) :=
  (dat0 (F := Ideal) V c).arrAt_eq_of_cover 2 _ (fun t _ => flushed_eq V c t) (cover)

end Cert.KernelIdeal.Transform1

end
-- ==== Proof.Transform2.lean ====
/-
  The second feature transform h·W₂, call by call.

  The call tiles the 100000 rows of its left operand into 50 blocks of 2000 rows; the right operand (128 × 40) is one
  block, the same at every grid point. At grid point t the body loads rows 2000·t … 2000·t + 1999 of the left operand and the
  whole right operand, narrows both to bf16 (at the extended reals a change of format is the identity), takes their
  matrix product into a zero accumulator and stores it as rows 2000·t … of the result. Entry (r, j) of that block is
  Σ_k left(2000·t + r, k) · right(k, j): exactly entry (2000·t + r, j) of the product of the WHOLE arrays, which is how the
  host's `dot_general` reads at an index. The blocks tile the result, so after the call the result array is the host's
  product of the two arrays the call found — whatever those arrays are (`V` is a parameter).
-/
import proofs.«141688_j6828998000936_1_alg».proof.Proof.Gen.KernelIdeal.Frame
import proofs.«141688_j6828998000936_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Transform2

open Idealize.ShloMosaic Idealize.ShloMosaic.TcCoe Idealize.SL.Sem
open Idealize.ShloMosaic.Pipeline (Dat Cfg Window)
open Cert.KernelIdeal Cert.KernelIdeal.Gen

/-- The kernel body's dot: a [2000, 128] block times the [128, 40] operand. -/
local notation "dK" => dot_S2000x128_S128x40_S2000x40_1_0_0_1_n_n
/-- The host's dot: the whole [100000, 128] array times the [128, 40] operand. -/
local notation "dR" => Cert.ReferenceIdeal.dot_S100000x128_S128x40_S100000x40_1_0_0_1_n_n

/-- The host's product of the whole left array with the right operand. -/
abbrev hostProd (a : FVec Ideal S100000x128 .f32) (w : FVec Ideal S128x40 .f32) : FVec Ideal S100000x40 .f32 :=
  Host.dotGeneral (F := Ideal) (dR) none a w

/-! ## The two products at an index -/

/-- Row `j 0` of a block, column `k`. -/
abbrev lk (j : S2000x40.Idx) (k : Fin 128) : S2000x128.Idx := fun a => match a with
  | ⟨0, _⟩ => ⟨(j 0).val, (j 0).isLt⟩
  | ⟨1, _⟩ => ⟨k.val, k.isLt⟩
/-- Row `k`, column `j 1` of the right operand. -/
abbrev rk (j : S2000x40.Idx) (k : Fin 128) : S128x40.Idx := fun a => match a with
  | ⟨0, _⟩ => ⟨k.val, k.isLt⟩
  | ⟨1, _⟩ => ⟨(j 1).val, (j 1).isLt⟩
/-- Row `i 0` of the whole left array, column `k`. -/
abbrev lR (i : S100000x40.Idx) (k : Fin 128) : S100000x128.Idx := fun a => match a with
  | ⟨0, _⟩ => ⟨(i 0).val, (i 0).isLt⟩
  | ⟨1, _⟩ => ⟨k.val, k.isLt⟩
/-- Row `k`, column `i 1` of the right operand. -/
abbrev rR (i : S100000x40.Idx) (k : Fin 128) : S128x40.Idx := fun a => match a with
  | ⟨0, _⟩ => ⟨k.val, k.isLt⟩
  | ⟨1, _⟩ => ⟨(i 1).val, (i 1).isLt⟩

theorem lhsK_0 (j : S2000x40.Idx) (q : (dK).contr.Idx) : ((dK).lhsIdx j q 0).val = (j 0).val := by
  unfold DotDims.lhsIdx
  rw [dif_neg (show ¬(0 : Fin S2000x128.rank) ∈ (dK).lhsBatch by decide), dif_pos (show (0 : Fin S2000x128.rank) ∈ (dK).lhsNonContracting by decide)]
  rfl
theorem lhsK_1 (j : S2000x40.Idx) (q : (dK).contr.Idx) : ((dK).lhsIdx j q 1).val = (q ⟨0, by decide⟩).val :=
  (dK).lhsIdx_val_of_single rfl j q
theorem rhsK_0 (j : S2000x40.Idx) (q : (dK).contr.Idx) : ((dK).rhsIdx j q 0).val = (q ⟨0, by decide⟩).val :=
  (dK).rhsIdx_val_of_single rfl j q
theorem rhsK_1 (j : S2000x40.Idx) (q : (dK).contr.Idx) : ((dK).rhsIdx j q 1).val = (j 1).val := by
  unfold DotDims.rhsIdx
  rw [dif_neg (show ¬(1 : Fin S128x40.rank) ∈ (dK).rhsBatch by decide), dif_pos (show (1 : Fin S128x40.rank) ∈ (dK).rhsNonContracting by decide)]
  rfl

theorem lhsR_0 (i : S100000x40.Idx) (q : (dR).contr.Idx) : ((dR).lhsIdx i q 0).val = (i 0).val := by
  unfold DotDims.lhsIdx
  rw [dif_neg (show ¬(0 : Fin S100000x128.rank) ∈ (dR).lhsBatch by decide), dif_pos (show (0 : Fin S100000x128.rank) ∈ (dR).lhsNonContracting by decide)]
  rfl
theorem lhsR_1 (i : S100000x40.Idx) (q : (dR).contr.Idx) : ((dR).lhsIdx i q 1).val = (q ⟨0, by decide⟩).val :=
  (dR).lhsIdx_val_of_single rfl i q
theorem rhsR_0 (i : S100000x40.Idx) (q : (dR).contr.Idx) : ((dR).rhsIdx i q 0).val = (q ⟨0, by decide⟩).val :=
  (dR).rhsIdx_val_of_single rfl i q
theorem rhsR_1 (i : S100000x40.Idx) (q : (dR).contr.Idx) : ((dR).rhsIdx i q 1).val = (i 1).val := by
  unfold DotDims.rhsIdx
  rw [dif_neg (show ¬(1 : Fin S128x40.rank) ∈ (dR).rhsBatch by decide), dif_pos (show (1 : Fin S128x40.rank) ∈ (dR).rhsNonContracting by decide)]
  rfl

/-- The body's stored value at entry `j` of the block: the sum over `k` of the loaded block at (j₀, k) times the loaded
    right operand at (k, j₁). -/
theorem pay_apply (x0 : Vec Ideal S2000x128 .f32) (x1 : Vec Ideal S128x40 .f32) (j : S2000x40.Idx) :
    k1_pay1 (F := Ideal) x0 x1 j = ∑ k : Fin 128, x0 (lk j k) * x1 (rk j k) := by
  unfold k1_pay1
  simp only [shapeCast_self]
  show FloatOps.matmul (dK) none (truncf (F := Ideal) .bf16 x0 (by decide)) (truncf (F := Ideal) .bf16 x1 (by decide)) (constant (F := Ideal) S2000x40 .f32 0x00000000#32) j = _
  refine (Ideal.matmul_constant_zero_apply (dK) none (truncf (F := Ideal) .bf16 x0 (by decide)) (truncf (F := Ideal) .bf16 x1 (by decide)) j).trans ?_
  rw [← Equiv.sum_comp (ValueIdx.contrEquiv1 (dK) 128 rfl rfl).symm]
  refine Finset.sum_congr rfl fun k _ => ?_
  have hk := ValueIdx.contrEquiv1_symm_val (dK) 128 rfl rfl k
  have el : (dK).lhsIdx j ((ValueIdx.contrEquiv1 (dK) 128 rfl rfl).symm k) = lk j k := funext fun a => Fin.ext (by
    match a with
    | ⟨0, _⟩ => exact lhsK_0 _ _
    | ⟨1, _⟩ => exact (lhsK_1 _ _).trans hk)
  have er : (dK).rhsIdx j ((ValueIdx.contrEquiv1 (dK) 128 rfl rfl).symm k) = rk j k := funext fun a => Fin.ext (by
    match a with
    | ⟨0, _⟩ => exact (rhsK_0 _ _).trans hk
    | ⟨1, _⟩ => exact rhsK_1 _ _)
  rw [el, er]
  rfl

/-- The host's product of the whole arrays at entry `i`: the same sum over `k`. -/
theorem host_apply (a : FVec Ideal S100000x128 .f32) (w : FVec Ideal S128x40 .f32) (i : S100000x40.Idx) :
    hostProd a w i = ∑ k : Fin 128, a (lR i k) * w (rR i k) := by
  simp only [hostProd, Host.dotGeneral]
  rw [Ideal.dotGeneral_apply, ← Equiv.sum_comp (ValueIdx.contrEquiv1 (dR) 128 rfl rfl).symm]
  refine Finset.sum_congr rfl fun k _ => ?_
  have hk := ValueIdx.contrEquiv1_symm_val (dR) 128 rfl rfl k
  have el : (dR).lhsIdx i ((ValueIdx.contrEquiv1 (dR) 128 rfl rfl).symm k) = lR i k := funext fun a => Fin.ext (by
    match a with
    | ⟨0, _⟩ => exact lhsR_0 _ _
    | ⟨1, _⟩ => exact (lhsR_1 _ _).trans hk)
  have er : (dR).rhsIdx i ((ValueIdx.contrEquiv1 (dR) 128 rfl rfl).symm k) = rR i k := funext fun a => Fin.ext (by
    match a with
    | ⟨0, _⟩ => exact (rhsR_0 _ _).trans hk
    | ⟨1, _⟩ => exact rhsR_1 _ _)
  rw [el, er]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the left operand's block moves down with the result's block and
    starts at column 0; the right operand's block is always the whole operand; the result's block starts at column 0. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0 :=
  (by decide +kernel : ∀ t : Fin grid1.N, _)

/-- Every block of rows is some grid point's. -/
theorem idx_onto : ∀ (q0 : Fin 50), ∃ t : Fin cfg1.N, win1_2.index t = ![q0.val, 0] :=
  (by decide +kernel : ∀ (q0 : Fin 50), ∃ t : Fin grid1.N, win1_2.index t = ![q0.val, 0])

/-- WHAT GRID POINT `t` WRITES BACK is block `t` of the host's product of the two arrays the call found. -/
theorem flushed_eq (c : Dev nD) (t : Fin cfg1.N) :
    (dat1 (F := Ideal) V c).flushed 2 t
      = ((cfg1.win 2).blk t).view.read (Elt Ideal) (hostProd (V c main_v47) (V c main_arg4)) := by
  show (cfg1.win 2).cut (grid1.coords t) ((dat1 (F := Ideal) V c).after 2 t) = _
  rw [after1_2]
  unfold out1_2
  rw [View.canon_unit_zero hz]
  simp only [View.ld_unit_zero (S := S2000x128) hz, View.ld_unit_zero (S := S128x40) hz]
  obtain ⟨e0, e1, e2, e3, e4⟩ := idx_facts t
  funext j
  show k1_pay1 (F := Ideal) (iblk1 V c 0 t) (iblk1 V c 1 t) j
      = hostProd (V c main_v47) (V c main_arg4) (((cfg1.win 2).blk t).view.emb j)
  refine (pay_apply (iblk1 V c 0 t) (iblk1 V c 1 t) j).trans ?_
  refine Eq.trans ?_ (host_apply (V c main_v47) (V c main_arg4) (((cfg1.win 2).blk t).view.emb j)).symm
  refine Finset.sum_congr rfl fun k _ => ?_
  have h0 : iblk1 V c 0 t (lk j k) = V c main_v47 (lR (((cfg1.win 2).blk t).view.emb j) k) := by
    show V c main_v47 (((cfg1.win 0).blk t).view.emb (lk j k)) = V c main_v47 (lR (((cfg1.win 2).blk t).view.emb j) k)
    refine congrArg (V c main_v47) ?_
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * k.val = k.val; omega
  have h1 : iblk1 V c 1 t (rk j k) = V c main_arg4 (rR (((cfg1.win 2).blk t).view.emb j) k) := by
    show V c main_arg4 (((cfg1.win 1).blk t).view.emb (rk j k)) = V c main_arg4 (rR (((cfg1.win 2).blk t).view.emb j) k)
    refine congrArg (V c main_arg4) ?_
    funext a; apply Fin.ext
    match a with
    | ⟨0, _⟩ => show win1_1.index t (0 : Fin 2) * 128 + 1 * k.val = k.val; omega
    | ⟨1, _⟩ => show win1_1.index t (1 : Fin 2) * 40 + 1 * (j 1).val = win1_2.index t (1 : Fin 2) * 40 + 1 * (j 1).val; omega
  rw [h0, h1]

/-- An index of the result array is in grid point `t`'s block iff each coordinate is in the block's range on its axis. -/
theorem mem_blk (t : Fin cfg1.N) (i : S100000x40.Idx) :
    i ∈ ((cfg1.win 2).blk t).view.set ↔ ∀ a : Fin 2, win1_2.index t a * S2000x40.size a ≤ (i a).val ∧ (i a).val < win1_2.index t a * S2000x40.size a + S2000x40.size a := by
  show i ∈ ((View.whole main_v78).slice (win1_2.rect t)).set ↔ _
  rw [View.set_slice_whole, Rect.mem_set_unit]
  exact Iff.rfl

/-- Every index of the result array is in some grid point's block: row r is in block r / 2000. -/
theorem cover (i : S100000x40.Idx) : ∃ t : Fin cfg1.N, (cfg1.win 2).flush t = true ∧ i ∈ ((cfg1.win 2).blk t).view.set := by
  have hi0 : (i 0).val < 100000 := (i 0).isLt
  have hi1 : (i 1).val < 40 := (i 1).isLt
  obtain ⟨t, ht⟩ := idx_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 40 ≤ (i 1).val ∧ (i 1).val < win1_2.index t (1 : Fin 2) * 40 + 40; omega

/-- THE RESULT ARRAY after the call: the host's product of the two arrays the call found. -/
theorem final (c : Dev nD) :
    (dat1 (F := Ideal) V c).arrAt 2 cfg1.N = hostProd (V c main_v47) (V c main_arg4) :=
  (dat1 (F := Ideal) V c).arrAt_eq_of_cover 2 _ (fun t _ => flushed_eq V c t) (cover)

end Cert.KernelIdeal.Transform2

end
-- ==== Proof.RowsMath.lean ====
/-
  The row operation y ↦ (y − max y) − log Σ exp (y − max y), read at an index on both sides.

  The kernel's third call applies it to a block of 5000 rows of 40 entries: a lane maximum folded from −∞, a subtraction
  of the row's maximum repeated along the row, exp, a lane sum, log, and a second subtraction. The host applies it to
  the whole [100000, 40] array: a maximum-reduction from −∞ (and one more maximum with −∞, which changes nothing), the
  same subtraction, exp, a sum-reduction from 0, log, the same second subtraction. At the extended reals each side at
  entry (r, q) is ONE function of row r alone,
      rowValue f q = (f q − M) − log Σ_k exp (f k − M),   M = the fold of max from −∞ over f,
  with f the row read entry by entry. This module proves that for the body's stored value (`body_apply`) and for the
  host's stage (`host_apply`); neither opens the other, and no finiteness is used: both sides are the same
  expression in the extended reals.
-/
import proofs.«141688_j6828998000936_1_alg».proof.Proof.Gen.KernelIdeal.Skeleton
import proofs.«141688_j6828998000936_1_alg».proof.Proof.Stages
import Idealize.ShloMosaic.Lib.Pipeline.Value
import Idealize.ShloMosaic.Lib.ValueIdx
import Idealize.ShloMosaic.PureOps.Ideal.Laws

set_option maxRecDepth 16384

noncomputable section

namespace Cert.KernelIdeal.Rows

open Idealize.ShloMosaic Idealize.ShloMosaic.TcCoe Idealize.SL.Sem Idealize.ShloMosaic.ValueIdx
open Cert.KernelIdeal Cert.KernelIdeal.Gen

/-! ## One row -/

/-- A row's maximum, folded from −∞ (the word both programs start from). -/
def rowMaxOf (f : Fin 40 → EReal) : EReal := (Finset.univ : Finset (Fin 40)).fold max (Ideal.ofBits .f32 0xFF800000#32) f

/-- One row's value at column `q`. -/
def rowValue (f : Fin 40 → EReal) (q : Fin 40) : EReal :=
  (f q - rowMaxOf f) - Ideal.log (∑ k : Fin 40, Ideal.exp (f k - rowMaxOf f))

/-- −∞ is neutral for max. -/
theorem max_negInf (x : EReal) : max (Ideal.ofBits .f32 0xFF800000#32) x = x := by simp [Ideal.ofBits, Ideal.ieee]

theorem exp_apply {s : Shape} (x : FVec Ideal s .f32) (i : s.Idx) : exp x i = Ideal.exp (x i) := rfl
theorem log_apply {s : Shape} (x : FVec Ideal s .f32) (i : s.Idx) : log x i = Ideal.log (x i) := rfl
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-! ## The kernel's block: [5000, 40] -/

/-- Row `j 0` of the block, column `k`. -/
abbrev rowK (j : S5000x40.Idx) (k : Fin 40) : S5000x40.Idx := fun a => match a with
  | ⟨0, _⟩ => ⟨(j 0).val, (j 0).isLt⟩
  | ⟨1, _⟩ => ⟨k.val, k.isLt⟩
/-- The entry of the [5000, 1] column that a block entry's row reads. -/
abbrev colK (j : S5000x40.Idx) : S5000x1.Idx := fun a => match a with
  | ⟨0, _⟩ => ⟨(j 0).val, (j 0).isLt⟩
  | ⟨1, _⟩ => ⟨0, Nat.one_pos⟩
/-- The entry of the [5000] vector behind an entry of the [5000, 1] column. -/
abbrev vecK (y : S5000x1.Idx) : S5000.Idx := fun a => match a with
  | ⟨0, _⟩ => ⟨(y 0).val, (y 0).isLt⟩
/-- Row `y 0` of the block, column `k`. -/
abbrev rowOfK (y : S5000.Idx) (k : Fin 40) : S5000x40.Idx := fun a => match a with
  | ⟨0, _⟩ => ⟨(y 0).val, (y 0).isLt⟩
  | ⟨1, _⟩ => ⟨k.val, k.isLt⟩

/-- A [5000, 1] column broadcast along the rows reads, at (r, q), the column at (r, 0). -/
theorem bcastK_apply {α : Type} (u : S5000x1.Idx → α) (h : S5000x1.Broadcasts S5000x40) (j : S5000x40.Idx) :
    broadcastTo S5000x40 u h j = u (colK j) :=
  broadcastTo_apply u h j (colK j) (fun a => match a with
    | ⟨0, _⟩ => by show (j 0).val = if (5000 : Nat) = 1 then 0 else (j 0).val; rw [if_neg (by decide)]
    | ⟨1, _⟩ => by show 0 = if (1 : Nat) = 1 then 0 else (j 1).val; rw [if_pos rfl])

/-- A [5000] vector cast to a [5000, 1] column reads, at (r, 0), the vector at r. -/
theorem castK_apply {α : Type} (v : S5000.Idx → α) (h : S5000.ShapeCasts S5000x1) (y : S5000x1.Idx) :
    shapeCast S5000x1 v h y = v (vecK y) :=
  shapeCast_apply v h y (vecK y) (by
    rw [Shape.rowMajor_val_one, Shape.rowMajor_val_two]
    show (y 0).val = (y 0).val * 1 + (y 1).val
    have h1 : (y 1).val < 1 := (y 1).isLt
    omega)

/-- The lane maximum of the block at row r: the fold of max from −∞ over the row. -/
theorem laneMax_apply (x : FVec Ideal S5000x40 .f32) (h : S5000x40.Reduces [1] S5000) (hφ : FKind.Formats .f32)
    (hacc : (0xFF800000#32 : BitVec 32) = 0xFF800000#32) (y : S5000.Idx) :
    multiReduction .maximumf [1] S5000 x 0xFF800000#32 h hφ hacc y = rowMaxOf (fun k => x (rowOfK y k)) := by
  refine (Ideal.multiReduction_maximumf_single x 0xFF800000#32 h hφ hacc y).trans ?_
  show (Finset.univ : Finset (Fin 40)).fold max (Ideal.ofBits .f32 0xFF800000#32) (fun k => x (h.lift y k)) = _
  unfold rowMaxOf
  refine congrArg (fun f => (Finset.univ : Finset (Fin 40)).fold max (Ideal.ofBits .f32 0xFF800000#32) f) (funext fun k => ?_)
  exact congrArg x (funext fun a => Fin.ext (by match a with | ⟨0, _⟩ => rfl | ⟨1, _⟩ => rfl))

/-- The lane sum of the block at row r: the sum over the row. -/
theorem laneSum_apply (x : FVec Ideal S5000x40 .f32) (h : S5000x40.Reduces [1] S5000) (hφ : FKind.Formats .f32)
    (hacc : (0x00000000#32 : BitVec 32) = 0x00000000#32) (y : S5000.Idx) :
    multiReduction .add [1] S5000 x 0x00000000#32 h hφ hacc y = ∑ k : Fin 40, x (rowOfK y k) := by
  refine (Ideal.multiReduction_add_single x 0x00000000#32 h hφ hacc y).trans ?_
  show ∑ k : Fin 40, x (h.lift y k) = _
  refine Finset.sum_congr rfl fun k _ => ?_
  exact congrArg x (funext fun a => Fin.ext (by match a with | ⟨0, _⟩ => rfl | ⟨1, _⟩ => rfl))

theorem rowOfK_vecK_colK (j : S5000x40.Idx) (k : Fin 40) : rowOfK (vecK (colK j)) k = rowK j k :=
  funext fun a => Fin.ext (by match a with | ⟨0, _⟩ => rfl | ⟨1, _⟩ => rfl)
theorem rowK_rowK (j : S5000x40.Idx) (k k' : Fin 40) : rowK (rowK j k) k' = rowK j k' :=
  funext fun a => Fin.ext (by match a with | ⟨0, _⟩ => rfl | ⟨1, _⟩ => rfl)
theorem rowK_self (j : S5000x40.Idx) : rowK j ⟨(j 1).val, (j 1).isLt⟩ = j :=
  funext fun a => Fin.ext (by match a with | ⟨0, _⟩ => rfl | ⟨1, _⟩ => rfl)

theorem rowK_via (j : S5000x40.Idx) (k k' : Fin 40) : rowOfK (vecK (colK (rowOfK (vecK (colK j)) k))) k' = rowK j k' :=
  funext fun a => Fin.ext (by match a with | ⟨0, _⟩ => rfl | ⟨1, _⟩ => rfl)

/-- THE BODY'S STORED VALUE at entry `j` of the block: the row value of row `j 0` of the loaded block at column `j 1`. -/
theorem body_apply (x : FVec Ideal S5000x40 .f32) (j : S5000x40.Idx) :
    k2_pay1 (F := Ideal) x j = rowValue (fun k => x (rowK j k)) ⟨(j 1).val, (j 1).isLt⟩ := by
  unfold k2_pay1
  simp only [shapeCast_self]
  unfold rowValue
  refine (subf_apply _ _ j).trans ?_
  refine congrArg₂ (fun p q : EReal => p - q) ?_ ?_
  · refine (subf_apply _ _ j).trans ?_
    refine congrArg₂ (fun p q : EReal => p - q) (congrArg x (rowK_self j)).symm ?_
    refine (bcastK_apply _ _ j).trans ?_
    refine (castK_apply _ _ (colK j)).trans ?_
    refine (laneMax_apply x _ _ _ (vecK (colK j))).trans ?_
    exact congrArg rowMaxOf (funext fun k => congrArg x (rowOfK_vecK_colK j k))
  · refine (bcastK_apply _ _ j).trans ?_
    refine (log_apply _ (colK j)).trans ?_
    refine congrArg Ideal.log ?_
    refine (castK_apply _ _ (colK j)).trans ?_
    refine (laneSum_apply _ _ _ _ (vecK (colK j))).trans ?_
    refine Finset.sum_congr rfl fun k _ => ?_
    refine (exp_apply _ (rowOfK (vecK (colK j)) k)).trans ?_
    refine congrArg Ideal.exp ?_
    refine (subf_apply _ _ (rowOfK (vecK (colK j)) k)).trans ?_
    refine congrArg₂ (fun p q : EReal => p - q) (congrArg x (rowOfK_vecK_colK j k)) ?_
    refine (bcastK_apply _ _ (rowOfK (vecK (colK j)) k)).trans ?_
    refine (castK_apply _ _ (colK (rowOfK (vecK (colK j)) k))).trans ?_
    refine (laneMax_apply x _ _ _ (vecK (colK (rowOfK (vecK (colK j)) k)))).trans ?_
    exact congrArg rowMaxOf (funext fun k' => congrArg x (rowK_via j k k'))

/-! ## The host's array: [100000, 40] -/

/-- Row `i 0` of the array, column `k`. -/
abbrev rowA (i : Cert.ReferenceIdeal.S100000x40.Idx) (k : Fin 40) : Cert.ReferenceIdeal.S100000x40.Idx := fun a => match a with
  | ⟨0, _⟩ => ⟨(i 0).val, (i 0).isLt⟩
  | ⟨1, _⟩ => ⟨k.val, k.isLt⟩
abbrev colA (i : Cert.ReferenceIdeal.S100000x40.Idx) : Cert.ReferenceIdeal.S100000x1.Idx := fun a => match a with
  | ⟨0, _⟩ => ⟨(i 0).val, (i 0).isLt⟩
  | ⟨1, _⟩ => ⟨0, Nat.one_pos⟩
abbrev vecA (y : Cert.ReferenceIdeal.S100000x1.Idx) : Cert.ReferenceIdeal.S100000.Idx := fun a => match a with
  | ⟨0, _⟩ => ⟨(y 0).val, (y 0).isLt⟩
abbrev rowOfA (y : Cert.ReferenceIdeal.S100000.Idx) (k : Fin 40) : Cert.ReferenceIdeal.S100000x40.Idx := fun a => match a with
  | ⟨0, _⟩ => ⟨(y 0).val, (y 0).isLt⟩
  | ⟨1, _⟩ => ⟨k.val, k.isLt⟩

/-- A [100000, 1] column broadcast along the rows reads, at (r, q), the column at (r, 0). -/
theorem bcastA_apply {α : Type} (u : Cert.ReferenceIdeal.S100000x1.Idx → α) (h : Cert.ReferenceIdeal.S100000x1.BroadcastsInDim Cert.ReferenceIdeal.S100000x40 ![0, 1]) (i : Cert.ReferenceIdeal.S100000x40.Idx) :
    broadcastInDim Cert.ReferenceIdeal.S100000x40 ![0, 1] h u i = u (colA i) :=
  broadcastInDim_apply _ h u i (colA i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

/-- A [100000] vector as a [100000, 1] column reads, at (r, 0), the vector at r. -/
theorem colOfVecA_apply {α : Type} (v : Cert.ReferenceIdeal.S100000.Idx → α) (h : Cert.ReferenceIdeal.S100000.BroadcastsInDim Cert.ReferenceIdeal.S100000x1 ![0]) (y : Cert.ReferenceIdeal.S100000x1.Idx) :
    broadcastInDim Cert.ReferenceIdeal.S100000x1 ![0] h v y = v (vecA y) :=
  broadcastInDim_apply _ h v y (vecA y) (fun a => match a with
    | ⟨0, _⟩ => by show (y 0).val = if (100000 : Nat) = 1 then 0 else (y 0).val; rw [if_neg (by decide)])

/-- A scalar constant broadcast to a vector reads the constant's value everywhere. -/
theorem splatA_apply (w : BitVec 32) (h : Cert.ReferenceIdeal.S_.BroadcastsInDim Cert.ReferenceIdeal.S100000 ![]) (y : Cert.ReferenceIdeal.S100000.Idx) :
    broadcastInDim Cert.ReferenceIdeal.S100000 ![] h (constant (F := Ideal) Cert.ReferenceIdeal.S_ .f32 w) y = Ideal.ofBits .f32 w :=
  broadcastInDim_apply _ h (constant (F := Ideal) Cert.ReferenceIdeal.S_ .f32 w) y (fun a => a.elim0) (fun a => a.elim0)

/-- The host's maximum-reduction at row r: the fold of max from −∞ over the row. -/
theorem hostMax_apply (x : FVec Ideal Cert.ReferenceIdeal.S100000x40 .f32) (h' : Cert.ReferenceIdeal.S100000x40.ReducesTo [1] Cert.ReferenceIdeal.S100000) (hu : 0 < Cert.ReferenceIdeal.S_.numel) (y : Cert.ReferenceIdeal.S100000.Idx) :
    Host.reduce FloatOps.maximumf x (constant (F := Ideal) Cert.ReferenceIdeal.S_ .f32 0xFF800000#32) h' hu y = rowMaxOf (fun k => x (rowOfA y k)) := by
  haveI : Std.Commutative (α := EReal) max := ⟨max_comm⟩
  haveI : Std.Associative (α := EReal) max := ⟨max_assoc⟩
  show Host.reduce (max : EReal → EReal → EReal) x (constant (F := Ideal) Cert.ReferenceIdeal.S_ .f32 0xFF800000#32) h' hu y = _
  have hR : Cert.ReferenceIdeal.S100000x40.Reduces [1] Cert.ReferenceIdeal.S100000 := by decide
  refine (Host.reduce_eq_fold_single (max : EReal → EReal → EReal) x (constant (F := Ideal) Cert.ReferenceIdeal.S_ .f32 0xFF800000#32) h' hR hu y).trans ?_
  show (Finset.univ : Finset (Fin 40)).fold max (Ideal.ofBits .f32 0xFF800000#32) (fun k => x (hR.lift y k)) = _
  unfold rowMaxOf
  refine congrArg (fun f => (Finset.univ : Finset (Fin 40)).fold max (Ideal.ofBits .f32 0xFF800000#32) f) (funext fun k => ?_)
  exact congrArg x (funext fun a => Fin.ext (by match a with | ⟨0, _⟩ => rfl | ⟨1, _⟩ => rfl))

/-- The host's sum-reduction from 0 at row r: the sum over the row. -/
theorem hostSum_apply (x : FVec Ideal Cert.ReferenceIdeal.S100000x40 .f32) (h' : Cert.ReferenceIdeal.S100000x40.ReducesTo [1] Cert.ReferenceIdeal.S100000) (hu : 0 < Cert.ReferenceIdeal.S_.numel) (y : Cert.ReferenceIdeal.S100000.Idx) :
    Host.reduceAdd (F := Ideal) x (constant (F := Ideal) Cert.ReferenceIdeal.S_ .f32 0x00000000#32) h' hu y = ∑ k : Fin 40, x (rowOfA y k) := by
  simp only [Host.reduceAdd, Ideal.hostReduceAdd_def]
  rw [Ideal.hostReduceAdd_single h' (by decide)]
  rw [constant_apply, Ideal.ofBits_zero_f32, zero_add]
  refine Finset.sum_congr rfl fun k _ => ?_
  exact congrArg x (funext fun a => Fin.ext (by match a with | ⟨0, _⟩ => rfl | ⟨1, _⟩ => rfl))

theorem rowOfA_vecA_colA (i : Cert.ReferenceIdeal.S100000x40.Idx) (k : Fin 40) : rowOfA (vecA (colA i)) k = rowA i k :=
  funext fun a => Fin.ext (by match a with | ⟨0, _⟩ => rfl | ⟨1, _⟩ => rfl)
theorem rowA_rowA (i : Cert.ReferenceIdeal.S100000x40.Idx) (k k' : Fin 40) : rowA (rowA i k) k' = rowA i k' :=
  funext fun a => Fin.ext (by match a with | ⟨0, _⟩ => rfl | ⟨1, _⟩ => rfl)
theorem rowA_self (i : Cert.ReferenceIdeal.S100000x40.Idx) : rowA i ⟨(i 1).val, (i 1).isLt⟩ = i :=
  funext fun a => Fin.ext (by match a with | ⟨0, _⟩ => rfl | ⟨1, _⟩ => rfl)

theorem rowA_via (i : Cert.ReferenceIdeal.S100000x40.Idx) (k k' : Fin 40) : rowA (rowOfA (vecA (colA i)) k) k' = rowA i k' :=
  funext fun a => Fin.ext (by match a with | ⟨0, _⟩ => rfl | ⟨1, _⟩ => rfl)

/-- The row maximum the host repeats along a row, at entry `i`: the fold of max from −∞ over row `i 0`. -/
theorem hostRowMax_apply (y : FVec Ideal Cert.ReferenceIdeal.S100000x40 .f32) (i : Cert.ReferenceIdeal.S100000x40.Idx) :
    Cert.Gcn.rowMax (F := Ideal) y i = rowMaxOf (fun k => y (rowA i k)) := by
  unfold Cert.Gcn.rowMax
  refine (bcastA_apply _ _ i).trans ?_
  refine (colOfVecA_apply _ _ (colA i)).trans ?_
  refine (maximumf_apply _ _ (vecA (colA i))).trans ?_
  refine (congrArg₂ (fun p q : EReal => max p q) (splatA_apply _ _ (vecA (colA i))) (hostMax_apply y _ _ (vecA (colA i)))).trans ?_
  refine (max_negInf _).trans ?_
  exact congrArg rowMaxOf (funext fun k => congrArg y (rowOfA_vecA_colA i k))

/-- THE HOST'S STAGE at entry `i` of the array: the row value of row `i 0` of the array at column `i 1`. -/
theorem host_apply (y : FVec Ideal Cert.ReferenceIdeal.S100000x40 .f32) (i : Cert.ReferenceIdeal.S100000x40.Idx) :
    Cert.Gcn.logSoftmaxRows (F := Ideal) y i = rowValue (fun k => y (rowA i k)) ⟨(i 1).val, (i 1).isLt⟩ := by
  unfold Cert.Gcn.logSoftmaxRows rowValue
  refine (subf_apply _ _ i).trans ?_
  refine congrArg₂ (fun p q : EReal => p - q) ?_ ?_
  · refine (subf_apply _ _ i).trans ?_
    refine congrArg₂ (fun p q : EReal => p - q) ?_ (hostRowMax_apply y i)
    exact (congrArg y (rowA_self i)).symm
  · refine (bcastA_apply _ _ i).trans ?_
    refine (hostLog_apply _ (colA i)).trans ?_
    refine congrArg Ideal.log ?_
    refine (colOfVecA_apply _ _ (colA i)).trans ?_
    refine (hostSum_apply _ _ _ (vecA (colA i))).trans ?_
    refine Finset.sum_congr rfl fun k _ => ?_
    refine (hostExp_apply _ (rowOfA (vecA (colA i)) k)).trans ?_
    refine congrArg Ideal.exp ?_
    refine (subf_apply _ _ (rowOfA (vecA (colA i)) k)).trans ?_
    refine congrArg₂ (fun p q : EReal => p - q) (congrArg y (rowOfA_vecA_colA i k)) ?_
    refine (hostRowMax_apply y (rowOfA (vecA (colA i)) k)).trans ?_
    exact congrArg rowMaxOf (funext fun k' => congrArg y (rowA_via i k k'))

end Cert.KernelIdeal.Rows

end
-- ==== Proof.Rows.lean ====
/-
  The third call: the row operation applied block by block IS the host's stage on the whole array.

  The call tiles the 100000 rows of its operand into 20 blocks of 5000 rows of 40 entries; both windows (the operand
  and the result) move together. At grid point t the body stores, at entry (r, q) of the result block, the row value
  (RowsMath.lean) of row r of the loaded block at column q; row r of block t is row 5000·t + r of the array, and the
  host's stage at entry (5000·t + r, q) is the row value of that same row. So what grid point t writes back is block
  t of the host's stage of the array the call found; the blocks tile the result, so the result array is that stage.
-/
import proofs.«141688_j6828998000936_1_alg».proof.Proof.Gen.KernelIdeal.Frame
import proofs.«141688_j6828998000936_1_alg».proof.Proof.RowsMath

set_option maxRecDepth 16384

noncomputable section

namespace Cert.KernelIdeal.Rows

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the operand's block moves with the result's block, and both start
    at column 0. -/
theorem idx_facts : ∀ t : Fin cfg2.N, win2_0.index t (0 : Fin 2) = win2_1.index t (0 : Fin 2)
    ∧ win2_0.index t (1 : Fin 2) = 0
    ∧ win2_1.index t (1 : Fin 2) = 0 :=
  (by decide +kernel : ∀ t : Fin grid2.N, _)

/-- Every block of rows is some grid point's. -/
theorem idx_onto : ∀ (q0 : Fin 20), ∃ t : Fin cfg2.N, win2_1.index t = ![q0.val, 0] :=
  (by decide +kernel : ∀ (q0 : Fin 20), ∃ t : Fin grid2.N, win2_1.index t = ![q0.val, 0])

/-- WHAT GRID POINT `t` WRITES BACK is block `t` of the host's stage of the array the call found. -/
theorem flushed_eq (c : Dev nD) (t : Fin cfg2.N) :
    (dat2 (F := Ideal) V c).flushed 1 t
      = ((cfg2.win 1).blk t).view.read (Elt Ideal) (Cert.Gcn.logSoftmaxRows (F := Ideal) (V c main_v94)) := by
  show (cfg2.win 1).cut (grid2.coords t) ((dat2 (F := Ideal) V c).after 1 t) = _
  rw [after2_1]
  unfold out2_1
  rw [View.canon_unit_zero hz]
  simp only [View.ld_unit_zero (S := S5000x40) hz]
  obtain ⟨e0, e1, e2⟩ := idx_facts t
  funext j
  show k2_pay1 (F := Ideal) (iblk2 V c 0 t) j
      = Cert.Gcn.logSoftmaxRows (F := Ideal) (V c main_v94) (((cfg2.win 1).blk t).view.emb j)
  refine (body_apply (iblk2 V c 0 t) j).trans ?_
  refine Eq.trans ?_ (host_apply (V c main_v94) (((cfg2.win 1).blk t).view.emb j)).symm
  refine congrArg₂ rowValue (funext fun k => ?_) (Fin.ext ?_)
  · show V c main_v94 (((cfg2.win 0).blk t).view.emb (rowK j k)) = V c main_v94 (rowA (((cfg2.win 1).blk t).view.emb j) k)
    refine congrArg (V c main_v94) ?_
    funext a; apply Fin.ext
    match a with
    | ⟨0, _⟩ => show win2_0.index t (0 : Fin 2) * 5000 + 1 * (j 0).val = win2_1.index t (0 : Fin 2) * 5000 + 1 * (j 0).val; omega
    | ⟨1, _⟩ => show win2_0.index t (1 : Fin 2) * 40 + 1 * k.val = k.val; omega
  · show (j 1).val = win2_1.index t (1 : Fin 2) * 40 + 1 * (j 1).val
    omega

/-- An index of the result array is in grid point `t`'s block iff each coordinate is in the block's range on its axis. -/
theorem mem_blk (t : Fin cfg2.N) (i : S100000x40.Idx) :
    i ∈ ((cfg2.win 1).blk t).view.set ↔ ∀ a : Fin 2, win2_1.index t a * S5000x40.size a ≤ (i a).val ∧ (i a).val < win2_1.index t a * S5000x40.size a + S5000x40.size a := by
  show i ∈ ((View.whole main_v95).slice (win2_1.rect t)).set ↔ _
  rw [View.set_slice_whole, Rect.mem_set_unit]
  exact Iff.rfl

/-- Every index of the result array is in some grid point's block: row r is in block r / 5000. -/
theorem cover (i : S100000x40.Idx) : ∃ t : Fin cfg2.N, (cfg2.win 1).flush t = true ∧ i ∈ ((cfg2.win 1).blk t).view.set := by
  have hi0 : (i 0).val < 100000 := (i 0).isLt
  have hi1 : (i 1).val < 40 := (i 1).isLt
  obtain ⟨t, ht⟩ := idx_onto ⟨(i 0).val / 5000, by omega⟩
  have q0 : win2_1.index t (0 : Fin 2) = (i 0).val / 5000 := congrFun ht 0
  have q1 : win2_1.index t (1 : Fin 2) = 0 := congrFun ht 1
  refine ⟨t, flush2_1 t, ?_⟩
  rw [mem_blk]
  intro a
  match a with
  | ⟨0, _⟩ => show win2_1.index t (0 : Fin 2) * 5000 ≤ (i 0).val ∧ (i 0).val < win2_1.index t (0 : Fin 2) * 5000 + 5000; omega
  | ⟨1, _⟩ => show win2_1.index t (1 : Fin 2) * 40 ≤ (i 1).val ∧ (i 1).val < win2_1.index t (1 : Fin 2) * 40 + 40; omega

/-- THE RESULT ARRAY after the call: the host's row stage of the array the call found. -/
theorem final (c : Dev nD) :
    (dat2 (F := Ideal) V c).arrAt 1 cfg2.N = Cert.Gcn.logSoftmaxRows (F := Ideal) (V c main_v94) :=
  (dat2 (F := Ideal) V c).arrAt_eq_of_cover 1 _ (fun t _ => flushed_eq V c t) (cover)

end Cert.KernelIdeal.Rows

end
-- ==== Proof.KernelValue.lean ====
/-
  The kernel program's returned buffer is the whole computation of the launched arguments.

  The boundary contents W0 … W12 of the run (KernelRun.lean) are walked forward here, never opened:
    * before the first call the host lines leave the edge lists and the per-edge norm (Stretches.lean), the arguments
      untouched;
    * the first call leaves, in its result array, the host's product of x and W₁ (Transform1.lean), and every other
      buffer as it was;
    * the lines up to the second call leave the first layer's aggregation with its bias and the maximum with 0, and
      the edge lists and the norm computed once more;
    * the second call leaves the host's product of that array and W₂ (Transform2.lean);
    * the lines up to the third call leave the second layer's aggregation with its bias;
    * the third call leaves the host's row stage of that array (Rows.lean).
  Composed, the returned buffer at the last boundary is `Cert.Gcn.whole` of the six arguments as launched — the same
  term the reference's run ends at.
-/
import proofs.«141688_j6828998000936_1_alg».proof.Proof.KernelRun
import proofs.«141688_j6828998000936_1_alg».proof.Proof.Stretches
import proofs.«141688_j6828998000936_1_alg».proof.Proof.Transform1
import proofs.«141688_j6828998000936_1_alg».proof.Proof.Transform2
import proofs.«141688_j6828998000936_1_alg».proof.Proof.Rows

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## Before the first call -/

theorem w3_arg0 (c : Dev nD) : W3 m ρ c (Proc.devRef .tc main_arg0) = m ((c : Thread nD τ).loc main_arg0) :=
  Stretches.pre_arg0 (W0 m ρ c)
theorem w3_arg1 (c : Dev nD) : W3 m ρ c (Proc.devRef .tc main_arg1) = m ((c : Thread nD τ).loc main_arg1) :=
  Stretches.pre_arg1 (W0 m ρ c)
theorem w3_arg2 (c : Dev nD) : W3 m ρ c (Proc.devRef .tc main_arg2) = m ((c : Thread nD τ).loc main_arg2) :=
  Stretches.pre_arg2 (W0 m ρ c)
theorem w3_arg3 (c : Dev nD) : W3 m ρ c (Proc.devRef .tc main_arg3) = m ((c : Thread nD τ).loc main_arg3) :=
  Stretches.pre_arg3 (W0 m ρ c)
theorem w3_arg4 (c : Dev nD) : W3 m ρ c (Proc.devRef .tc main_arg4) = m ((c : Thread nD τ).loc main_arg4) :=
  Stretches.pre_arg4 (W0 m ρ c)
theorem w3_arg5 (c : Dev nD) : W3 m ρ c (Proc.devRef .tc main_arg5) = m ((c : Thread nD τ).loc main_arg5) :=
  Stretches.pre_arg5 (W0 m ρ c)
theorem w3_src (c : Dev nD) : W3 m ρ c (Proc.devRef .tc main_v3) = Cert.Gcn.srcOf (F := Ideal) (m ((c : Thread nD τ).loc main_arg1)) :=
  Stretches.pre_src (W0 m ρ c)
theorem w3_dst (c : Dev nD) : W3 m ρ c (Proc.devRef .tc main_v6) = Cert.Gcn.dstOf (F := Ideal) (m ((c : Thread nD τ).loc main_arg1)) :=
  Stretches.pre_dst (W0 m ρ c)
theorem w3_norm (c : Dev nD) : W3 m ρ c (Proc.devRef .tc main_v29)
    = Cert.Gcn.normOf (F := Ideal) (Cert.Gcn.srcOf (F := Ideal) (m ((c : Thread nD τ).loc main_arg1))) (Cert.Gcn.dstOf (F := Ideal) (m ((c : Thread nD τ).loc main_arg1))) :=
  Stretches.pre_norm (W0 m ρ c)

/-! ## After the first call -/

theorem w4_h (c : Dev nD) : W4 m ρ c (Proc.devRef .tc main_v30) = Transform1.hostProd (m ((c : Thread nD τ).loc main_arg0)) (m ((c : Thread nD τ).loc main_arg2)) :=
  (W4_arr m ρ c 2).trans ((Transform1.final (V3 m ρ) c).trans (congrArg₂ Transform1.hostProd (w3_arg0 m ρ c) (w3_arg2 m ρ c)))
theorem w4_keep_main_v3 (c : Dev nD) : W4 m ρ c (Proc.devRef .tc main_v3) = W3 m ρ c (Proc.devRef .tc main_v3) := W4_of_ne m ρ c main_v3 (by decide)
theorem w4_keep_main_v6 (c : Dev nD) : W4 m ρ c (Proc.devRef .tc main_v6) = W3 m ρ c (Proc.devRef .tc main_v6) := W4_of_ne m ρ c main_v6 (by decide)
theorem w4_keep_main_v29 (c : Dev nD) : W4 m ρ c (Proc.devRef .tc main_v29) = W3 m ρ c (Proc.devRef .tc main_v29) := W4_of_ne m ρ c main_v29 (by decide)
theorem w4_keep_main_arg1 (c : Dev nD) : W4 m ρ c (Proc.devRef .tc main_arg1) = W3 m ρ c (Proc.devRef .tc main_arg1) := W4_of_ne m ρ c main_arg1 (by decide)
theorem w4_keep_main_arg3 (c : Dev nD) : W4 m ρ c (Proc.devRef .tc main_arg3) = W3 m ρ c (Proc.devRef .tc main_arg3) := W4_of_ne m ρ c main_arg3 (by decide)
theorem w4_keep_main_arg4 (c : Dev nD) : W4 m ρ c (Proc.devRef .tc main_arg4) = W3 m ρ c (Proc.devRef .tc main_arg4) := W4_of_ne m ρ c main_arg4 (by decide)
theorem w4_keep_main_arg5 (c : Dev nD) : W4 m ρ c (Proc.devRef .tc main_arg5) = W3 m ρ c (Proc.devRef .tc main_arg5) := W4_of_ne m ρ c main_arg5 (by decide)

/-! ## Up to the second call -/

/-- The first layer's output: aggregated, biased, cut at 0. -/
theorem w9_h (c : Dev nD) : W9 m ρ c (Proc.devRef .tc main_v47)
    = Cert.Gcn.relu128 (F := Ideal) (Cert.Gcn.agg128 (F := Ideal) (Transform1.hostProd (m ((c : Thread nD τ).loc main_arg0)) (m ((c : Thread nD τ).loc main_arg2)))
        (Cert.Gcn.srcOf (F := Ideal) (m ((c : Thread nD τ).loc main_arg1))) (Cert.Gcn.dstOf (F := Ideal) (m ((c : Thread nD τ).loc main_arg1)))
        (Cert.Gcn.normOf (F := Ideal) (Cert.Gcn.srcOf (F := Ideal) (m ((c : Thread nD τ).loc main_arg1))) (Cert.Gcn.dstOf (F := Ideal) (m ((c : Thread nD τ).loc main_arg1)))) (m ((c : Thread nD τ).loc main_arg3))) := by
  refine (Stretches.mid_h (W4 m ρ c)).trans ?_
  rw [w4_h, w4_keep_main_v3, w3_src, w4_keep_main_v6, w3_dst, w4_keep_main_v29, w3_norm, w4_keep_main_arg3, w3_arg3]
theorem w9_arg1 (c : Dev nD) : W4 m ρ c (Proc.devRef .tc main_arg1) = m ((c : Thread nD τ).loc main_arg1) :=
  (w4_keep_main_arg1 m ρ c).trans (w3_arg1 m ρ c)
theorem w9_src (c : Dev nD) : W9 m ρ c (Proc.devRef .tc main_v51) = Cert.Gcn.srcOf (F := Ideal) (m ((c : Thread nD τ).loc main_arg1)) := by
  refine (Stretches.mid_src (W4 m ρ c)).trans ?_
  rw [w9_arg1]
theorem w9_dst (c : Dev nD) : W9 m ρ c (Proc.devRef .tc main_v54) = Cert.Gcn.dstOf (F := Ideal) (m ((c : Thread nD τ).loc main_arg1)) := by
  refine (Stretches.mid_dst (W4 m ρ c)).trans ?_
  rw [w9_arg1]
theorem w9_norm (c : Dev nD) : W9 m ρ c (Proc.devRef .tc main_v77)
    = Cert.Gcn.normOf (F := Ideal) (Cert.Gcn.srcOf (F := Ideal) (m ((c : Thread nD τ).loc main_arg1))) (Cert.Gcn.dstOf (F := Ideal) (m ((c : Thread nD τ).loc main_arg1))) := by
  refine (Stretches.mid_norm (W4 m ρ c)).trans ?_
  rw [w9_arg1]
theorem w9_arg4 (c : Dev nD) : W9 m ρ c (Proc.devRef .tc main_arg4) = m ((c : Thread nD τ).loc main_arg4) :=
  (Stretches.mid_arg4 (W4 m ρ c)).trans ((w4_keep_main_arg4 m ρ c).trans (w3_arg4 m ρ c))
theorem w9_arg5 (c : Dev nD) : W9 m ρ c (Proc.devRef .tc main_arg5) = m ((c : Thread nD τ).loc main_arg5) :=
  (Stretches.mid_arg5 (W4 m ρ c)).trans ((w4_keep_main_arg5 m ρ c).trans (w3_arg5 m ρ c))

/-! ## After the second call -/

theorem w10_h (c : Dev nD) : W10 m ρ c (Proc.devRef .tc main_v78)
    = Transform2.hostProd (W9 m ρ c (Proc.devRef .tc main_v47)) (m ((c : Thread nD τ).loc main_arg4)) :=
  (W10_arr m ρ c 2).trans ((Transform2.final (V9 m ρ) c).trans (congrArg (Transform2.hostProd (W9 m ρ c (Proc.devRef .tc main_v47))) (w9_arg4 m ρ c)))
theorem w10_keep_main_v51 (c : Dev nD) : W10 m ρ c (Proc.devRef .tc main_v51) = W9 m ρ c (Proc.devRef .tc main_v51) := W10_of_ne m ρ c main_v51 (by decide)
theorem w10_keep_main_v54 (c : Dev nD) : W10 m ρ c (Proc.devRef .tc main_v54) = W9 m ρ c (Proc.devRef .tc main_v54) := W10_of_ne m ρ c main_v54 (by decide)
theorem w10_keep_main_v77 (c : Dev nD) : W10 m ρ c (Proc.devRef .tc main_v77) = W9 m ρ c (Proc.devRef .tc main_v77) := W10_of_ne m ρ c main_v77 (by decide)
theorem w10_keep_main_arg5 (c : Dev nD) : W10 m ρ c (Proc.devRef .tc main_arg5) = W9 m ρ c (Proc.devRef .tc main_arg5) := W10_of_ne m ρ c main_arg5 (by decide)

/-! ## Up to the third call, and the third call -/

/-- THE RETURNED BUFFER at the last boundary: the whole computation of the launched arguments. -/
theorem out_value (c : Dev nD) : W12 m ρ c (Proc.devRef .tc main_v95)
    = Cert.Gcn.whole (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W12_arr m ρ c 1).trans ?_
  refine (Rows.final (V11 m ρ) c).trans ?_
  refine (congrArg (Cert.Gcn.logSoftmaxRows (F := Ideal)) (Stretches.tail_y (W10 m ρ c))).trans ?_
  rw [w10_h, w9_h, w10_keep_main_v51, w9_src, w10_keep_main_v54, w9_dst, w10_keep_main_v77, w9_norm, w10_keep_main_arg5, w9_arg5]
  rfl

/-! ## The run, read -/

/-- Every weakly fair execution of the kernel program terminates, nothing faulting, with the returned buffer at the
    whole computation of the launched arguments and the arguments unchanged. -/
theorem run_value : θ_run defs (onTc (τ := τ) (main (F := Ideal))) ⟨m, fun _ => 0, ρ⟩ (fun r => ∀ c : Dev nD,
      r.2.mem ((c.tc : Thread nD τ).loc main_v95)
        = Cert.Gcn.whole (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (out_value m ρ c), (h c).2⟩) (run_named m ρ)

end Cert.KernelIdeal.Whole

end
-- ==== Proof.LibTypedRef.lean ====
/-
  Typed references: carrying contents to the buffer's type and back is the identity.

  A host function called from @main is printed over TYPED references (a reference together with the fact that its
  buffer's type is the value's type); each of its operations carries its result to the buffer's type (`toBuf`) and
  each operand back (`ofBuf`), both transports along that fact. Read back, a line of such operations therefore leaves
  `x.ofBuf (x.toBuf v)` around every intermediate value. The pair is the identity for ANY typed reference, seen by
  taking the reference apart (the fact becomes `rfl` and both transports vanish) — no buffer type is ever computed.
  Rewriting with it collapses the pairs bottom-up, where comparing the two sides by unfolding has to open one transport
  inside the other at every level (a function of fifteen operations was out of reach that way).
-/
import Idealize.ShloMosaic.Lib.StableHlo

namespace Cert.LibTypedRef

open Idealize.ShloMosaic Idealize.ShloMosaic.StableHlo

/-- Contents carried to a typed reference's buffer type and back are unchanged. General: any signature, any value
    type, any element family. Use: `simp only [Cert.LibTypedRef.ofBuf_toBuf]` after reading a line of host operations
    that contains a called function's operations, before closing the equation. -/
theorem ofBuf_toBuf {sig : RefSig} {T : BufTy} {Val : EltTy → Type} (x : TRef sig T) (v : T.Contents Val) :
    x.ofBuf (x.toBuf v) = v := by
  obtain ⟨r, rfl, _, _⟩ := x
  rfl

end Cert.LibTypedRef
-- ==== Proof.RefRun.lean ====
/-
  The reference program's run, read stage by stage.

  The reference is one line of 138 host operations (its called functions written out at their call sites). Every
  weakly fair execution runs them in order and terminates, each buffer ending at the fold of the operations over
  the launch contents (`StableHlo.run_seq`). The fold is read here in three stretches — up to and including the
  first product x·W₁, from there up to and including the second product, and the rest (the second aggregation and the
  row operation) — each stretch saying what it leaves in the few buffers the next one reads, as a stage of
  Stages.lean, for ANY contents it starts from. Chained, the returned buffer holds `Cert.Gcn.whole` of the six
  arguments, and no operation writes an argument.
-/
import proofs.«141688_j6828998000936_1_alg».proof.Proof.Gen.ReferenceIdeal
import proofs.«141688_j6828998000936_1_alg».proof.Proof.Stages
import proofs.«141688_j6828998000936_1_alg».proof.Proof.LibTypedRef
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 138 operations, in order (a called function's operations stand in its call's place). -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    binary main_arg0 main_arg2 main_v30 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    nullary main_v48 (iotaInDim S100000 32 0),
    unary main_arg1 main_v49 ((extractStridedSlice S1x1600000 ![0, 0] · slices_S2x1600000_S1x1600000_0_0) : (⟨S2x1600000, .i32⟩ : BufTy).Contents (Elt F) → (⟨S1x1600000, .i32⟩ : BufTy).Contents (Elt F)),
    reshape main_v49 main_v50 rfl shapeCasts_S1x1600000_S1600000,
    binary main_v50 main_v48 main_v51 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v52 ((extractStridedSlice S1x1600000 ![1, 0] · slices_S2x1600000_S1x1600000_1_0) : (⟨S2x1600000, .i32⟩ : BufTy).Contents (Elt F) → (⟨S1x1600000, .i32⟩ : BufTy).Contents (Elt F)),
    reshape main_v52 main_v53 rfl shapeCasts_S1x1600000_S1600000,
    binary main_v53 main_v48 main_v54 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_9 (constant S_ .f32 0x3F800000#32),
    unary main_cst_9 main_v55 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v56 (broadcastInDim S100000 ![] bcast_S_S100000 : (⟨S_, .f32⟩ : BufTy).Contents (Elt F) → (⟨S100000, .f32⟩ : BufTy).Contents (Elt F)),
    unary main_v54 main_v57 (broadcastInDim S1700000x1 ![0] bcast_S1700000_S1700000x1_0 : (⟨S1700000, .i32⟩ : BufTy).Contents (Elt F) → (⟨S1700000x1, .i32⟩ : BufTy).Contents (Elt F)),
    ternary main_v56 main_v57 main_v55 main_v58 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v59 (broadcastInDim S100000 ![] bcast_S_S100000 : (⟨S_, .f32⟩ : BufTy).Contents (Elt F) → (⟨S100000, .f32⟩ : BufTy).Contents (Elt F)),
    binary main_v58 main_v59 main_v60 (cmpf .ogt : (⟨S100000, .f32⟩ : BufTy).Contents (Elt F) → (⟨S100000, .f32⟩ : BufTy).Contents (Elt F) → (⟨S100000, .i1⟩ : BufTy).Contents (Elt F)),
    unary main_v58 main_v61 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v60) (TRef.of (T := ⟨S100000, .f32⟩) main_v61) (TRef.of (T := ⟨S100000, .f32⟩) main_call2_v1) (TRef.of (T := ⟨S100000, .f32⟩) main_v62) select,
    nullary main_c_13 (constantI S_ 32 0#32),
    unary main_c_13 main_v63 (broadcastInDim S1700000 ![] bcast_S_S1700000 : (⟨S_, .i32⟩ : BufTy).Contents (Elt F) → (⟨S1700000, .i32⟩ : BufTy).Contents (Elt F)),
    binary main_v51 main_v63 main_v64 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v65 (broadcastInDim S1700000 ![] bcast_S_S1700000 : (⟨S_, .i32⟩ : BufTy).Contents (Elt F) → (⟨S1700000, .i32⟩ : BufTy).Contents (Elt F)),
    binary main_v51 main_v65 main_v66 (addi : (⟨S1700000, .i32⟩ : BufTy).Contents (Elt F) → (⟨S1700000, .i32⟩ : BufTy).Contents (Elt F) → (⟨S1700000, .i32⟩ : BufTy).Contents (Elt F)),
    ternary main_v64 main_v66 main_v51 main_v67 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v67 main_v68 (broadcastInDim S1700000x1 ![0] bcast_S1700000_S1700000x1_0 : (⟨S1700000, .i32⟩ : BufTy).Contents (Elt F) → (⟨S1700000x1, .i32⟩ : BufTy).Contents (Elt F)),
    binary main_v62 main_v68 main_v69 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v70 (broadcastInDim S1700000 ![] bcast_S_S1700000 : (⟨S_, .i32⟩ : BufTy).Contents (Elt F) → (⟨S1700000, .i32⟩ : BufTy).Contents (Elt F)),
    binary main_v54 main_v70 main_v71 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v72 (broadcastInDim S1700000 ![] bcast_S_S1700000 : (⟨S_, .i32⟩ : BufTy).Contents (Elt F) → (⟨S1700000, .i32⟩ : BufTy).Contents (Elt F)),
    binary main_v54 main_v72 main_v73 (addi : (⟨S1700000, .i32⟩ : BufTy).Contents (Elt F) → (⟨S1700000, .i32⟩ : BufTy).Contents (Elt F) → (⟨S1700000, .i32⟩ : BufTy).Contents (Elt F)),
    ternary main_v71 main_v73 main_v54 main_v74 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v74 main_v75 (broadcastInDim S1700000x1 ![0] bcast_S1700000_S1700000x1_0 : (⟨S1700000, .i32⟩ : BufTy).Contents (Elt F) → (⟨S1700000x1, .i32⟩ : BufTy).Contents (Elt F)),
    binary main_v62 main_v75 main_v76 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v69 main_v76 main_v77 (mulf : (⟨S1700000, .f32⟩ : BufTy).Contents (Elt F) → (⟨S1700000, .f32⟩ : BufTy).Contents (Elt F) → (⟨S1700000, .f32⟩ : BufTy).Contents (Elt F)),
    binary main_v47 main_arg4 main_v78 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    nullary main_c_17 (constantI S_ 32 0#32),
    unary main_c_17 main_v79 (broadcastInDim S1700000 ![] bcast_S_S1700000 : (⟨S_, .i32⟩ : BufTy).Contents (Elt F) → (⟨S1700000, .i32⟩ : BufTy).Contents (Elt F)),
    binary main_v51 main_v79 main_v80 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v81 (broadcastInDim S1700000 ![] bcast_S_S1700000 : (⟨S_, .i32⟩ : BufTy).Contents (Elt F) → (⟨S1700000, .i32⟩ : BufTy).Contents (Elt F)),
    binary main_v51 main_v81 main_v82 (addi : (⟨S1700000, .i32⟩ : BufTy).Contents (Elt F) → (⟨S1700000, .i32⟩ : BufTy).Contents (Elt F) → (⟨S1700000, .i32⟩ : BufTy).Contents (Elt F)),
    ternary main_v80 main_v82 main_v51 main_v83 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v83 main_v84 (broadcastInDim S1700000x1 ![0] bcast_S1700000_S1700000x1_0 : (⟨S1700000, .i32⟩ : BufTy).Contents (Elt F) → (⟨S1700000x1, .i32⟩ : BufTy).Contents (Elt F)),
    binary main_v78 main_v84 main_v85 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v77 main_v86 (broadcastInDim S1700000x1 ![0] bcast_S1700000_S1700000x1_0 : (⟨S1700000, .f32⟩ : BufTy).Contents (Elt F) → (⟨S1700000x1, .f32⟩ : BufTy).Contents (Elt F)),
    unary main_v86 main_v87 (broadcastInDim S1700000x40 ![0, 1] bcast_S1700000x1_S1700000x40_0_1 : (⟨S1700000x1, .f32⟩ : BufTy).Contents (Elt F) → (⟨S1700000x40, .f32⟩ : BufTy).Contents (Elt F)),
    binary main_v85 main_v87 main_v88 (mulf : (⟨S1700000x40, .f32⟩ : BufTy).Contents (Elt F) → (⟨S1700000x40, .f32⟩ : BufTy).Contents (Elt F) → (⟨S1700000x40, .f32⟩ : BufTy).Contents (Elt F)),
    nullary main_cst_19 (constant S_ .f32 0x00000000#32),
    unary main_cst_19 main_v89 (broadcastInDim S100000x40 ![] bcast_S_S100000x40 : (⟨S_, .f32⟩ : BufTy).Contents (Elt F) → (⟨S100000x40, .f32⟩ : BufTy).Contents (Elt F)),
    unary main_v54 main_v90 (broadcastInDim S1700000x1 ![0] bcast_S1700000_S1700000x1_0 : (⟨S1700000, .i32⟩ : BufTy).Contents (Elt F) → (⟨S1700000x1, .i32⟩ : BufTy).Contents (Elt F)),
    ternary main_v89 main_v90 main_v88 main_v91 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    unary main_arg5 main_v92 (broadcastInDim S1x40 ![1] bcast_S40_S1x40_1 : (⟨S40, .f32⟩ : BufTy).Contents (Elt F) → (⟨S1x40, .f32⟩ : BufTy).Contents (Elt F)),
    unary main_v92 main_v93 (broadcastInDim S100000x40 ![0, 1] bcast_S1x40_S100000x40_0_1 : (⟨S1x40, .f32⟩ : BufTy).Contents (Elt F) → (⟨S100000x40, .f32⟩ : BufTy).Contents (Elt F)),
    binary main_v91 main_v93 main_v94 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call3_cst) (constant S_ .f32 0xFF800000#32),
    TRef.binary (TRef.of (T := ⟨S100000x40, .f32⟩) main_v94) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v94) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v95) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The three stretches -/

/-- The operations up to and including the first product. -/
abbrev ops1 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    binary main_arg0 main_arg2 main_v30 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)) ]

/-- From there up to and including the second product. -/
abbrev ops2 : List (HloOp τ sig (Elt F)) :=
  [ nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    nullary main_v48 (iotaInDim S100000 32 0),
    unary main_arg1 main_v49 ((extractStridedSlice S1x1600000 ![0, 0] · slices_S2x1600000_S1x1600000_0_0) : (⟨S2x1600000, .i32⟩ : BufTy).Contents (Elt F) → (⟨S1x1600000, .i32⟩ : BufTy).Contents (Elt F)),
    reshape main_v49 main_v50 rfl shapeCasts_S1x1600000_S1600000,
    binary main_v50 main_v48 main_v51 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v52 ((extractStridedSlice S1x1600000 ![1, 0] · slices_S2x1600000_S1x1600000_1_0) : (⟨S2x1600000, .i32⟩ : BufTy).Contents (Elt F) → (⟨S1x1600000, .i32⟩ : BufTy).Contents (Elt F)),
    reshape main_v52 main_v53 rfl shapeCasts_S1x1600000_S1600000,
    binary main_v53 main_v48 main_v54 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_9 (constant S_ .f32 0x3F800000#32),
    unary main_cst_9 main_v55 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v56 (broadcastInDim S100000 ![] bcast_S_S100000 : (⟨S_, .f32⟩ : BufTy).Contents (Elt F) → (⟨S100000, .f32⟩ : BufTy).Contents (Elt F)),
    unary main_v54 main_v57 (broadcastInDim S1700000x1 ![0] bcast_S1700000_S1700000x1_0 : (⟨S1700000, .i32⟩ : BufTy).Contents (Elt F) → (⟨S1700000x1, .i32⟩ : BufTy).Contents (Elt F)),
    ternary main_v56 main_v57 main_v55 main_v58 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v59 (broadcastInDim S100000 ![] bcast_S_S100000 : (⟨S_, .f32⟩ : BufTy).Contents (Elt F) → (⟨S100000, .f32⟩ : BufTy).Contents (Elt F)),
    binary main_v58 main_v59 main_v60 (cmpf .ogt : (⟨S100000, .f32⟩ : BufTy).Contents (Elt F) → (⟨S100000, .f32⟩ : BufTy).Contents (Elt F) → (⟨S100000, .i1⟩ : BufTy).Contents (Elt F)),
    unary main_v58 main_v61 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v60) (TRef.of (T := ⟨S100000, .f32⟩) main_v61) (TRef.of (T := ⟨S100000, .f32⟩) main_call2_v1) (TRef.of (T := ⟨S100000, .f32⟩) main_v62) select,
    nullary main_c_13 (constantI S_ 32 0#32),
    unary main_c_13 main_v63 (broadcastInDim S1700000 ![] bcast_S_S1700000 : (⟨S_, .i32⟩ : BufTy).Contents (Elt F) → (⟨S1700000, .i32⟩ : BufTy).Contents (Elt F)),
    binary main_v51 main_v63 main_v64 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v65 (broadcastInDim S1700000 ![] bcast_S_S1700000 : (⟨S_, .i32⟩ : BufTy).Contents (Elt F) → (⟨S1700000, .i32⟩ : BufTy).Contents (Elt F)),
    binary main_v51 main_v65 main_v66 (addi : (⟨S1700000, .i32⟩ : BufTy).Contents (Elt F) → (⟨S1700000, .i32⟩ : BufTy).Contents (Elt F) → (⟨S1700000, .i32⟩ : BufTy).Contents (Elt F)),
    ternary main_v64 main_v66 main_v51 main_v67 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v67 main_v68 (broadcastInDim S1700000x1 ![0] bcast_S1700000_S1700000x1_0 : (⟨S1700000, .i32⟩ : BufTy).Contents (Elt F) → (⟨S1700000x1, .i32⟩ : BufTy).Contents (Elt F)),
    binary main_v62 main_v68 main_v69 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v70 (broadcastInDim S1700000 ![] bcast_S_S1700000 : (⟨S_, .i32⟩ : BufTy).Contents (Elt F) → (⟨S1700000, .i32⟩ : BufTy).Contents (Elt F)),
    binary main_v54 main_v70 main_v71 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v72 (broadcastInDim S1700000 ![] bcast_S_S1700000 : (⟨S_, .i32⟩ : BufTy).Contents (Elt F) → (⟨S1700000, .i32⟩ : BufTy).Contents (Elt F)),
    binary main_v54 main_v72 main_v73 (addi : (⟨S1700000, .i32⟩ : BufTy).Contents (Elt F) → (⟨S1700000, .i32⟩ : BufTy).Contents (Elt F) → (⟨S1700000, .i32⟩ : BufTy).Contents (Elt F)),
    ternary main_v71 main_v73 main_v54 main_v74 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v74 main_v75 (broadcastInDim S1700000x1 ![0] bcast_S1700000_S1700000x1_0 : (⟨S1700000, .i32⟩ : BufTy).Contents (Elt F) → (⟨S1700000x1, .i32⟩ : BufTy).Contents (Elt F)),
    binary main_v62 main_v75 main_v76 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v69 main_v76 main_v77 (mulf : (⟨S1700000, .f32⟩ : BufTy).Contents (Elt F) → (⟨S1700000, .f32⟩ : BufTy).Contents (Elt F) → (⟨S1700000, .f32⟩ : BufTy).Contents (Elt F)),
    binary main_v47 main_arg4 main_v78 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)) ]

/-- The rest: the second aggregation and the row operation. -/
abbrev ops3 : List (HloOp τ sig (Elt F)) :=
  [ nullary main_c_17 (constantI S_ 32 0#32),
    unary main_c_17 main_v79 (broadcastInDim S1700000 ![] bcast_S_S1700000 : (⟨S_, .i32⟩ : BufTy).Contents (Elt F) → (⟨S1700000, .i32⟩ : BufTy).Contents (Elt F)),
    binary main_v51 main_v79 main_v80 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v81 (broadcastInDim S1700000 ![] bcast_S_S1700000 : (⟨S_, .i32⟩ : BufTy).Contents (Elt F) → (⟨S1700000, .i32⟩ : BufTy).Contents (Elt F)),
    binary main_v51 main_v81 main_v82 (addi : (⟨S1700000, .i32⟩ : BufTy).Contents (Elt F) → (⟨S1700000, .i32⟩ : BufTy).Contents (Elt F) → (⟨S1700000, .i32⟩ : BufTy).Contents (Elt F)),
    ternary main_v80 main_v82 main_v51 main_v83 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v83 main_v84 (broadcastInDim S1700000x1 ![0] bcast_S1700000_S1700000x1_0 : (⟨S1700000, .i32⟩ : BufTy).Contents (Elt F) → (⟨S1700000x1, .i32⟩ : BufTy).Contents (Elt F)),
    binary main_v78 main_v84 main_v85 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v77 main_v86 (broadcastInDim S1700000x1 ![0] bcast_S1700000_S1700000x1_0 : (⟨S1700000, .f32⟩ : BufTy).Contents (Elt F) → (⟨S1700000x1, .f32⟩ : BufTy).Contents (Elt F)),
    unary main_v86 main_v87 (broadcastInDim S1700000x40 ![0, 1] bcast_S1700000x1_S1700000x40_0_1 : (⟨S1700000x1, .f32⟩ : BufTy).Contents (Elt F) → (⟨S1700000x40, .f32⟩ : BufTy).Contents (Elt F)),
    binary main_v85 main_v87 main_v88 (mulf : (⟨S1700000x40, .f32⟩ : BufTy).Contents (Elt F) → (⟨S1700000x40, .f32⟩ : BufTy).Contents (Elt F) → (⟨S1700000x40, .f32⟩ : BufTy).Contents (Elt F)),
    nullary main_cst_19 (constant S_ .f32 0x00000000#32),
    unary main_cst_19 main_v89 (broadcastInDim S100000x40 ![] bcast_S_S100000x40 : (⟨S_, .f32⟩ : BufTy).Contents (Elt F) → (⟨S100000x40, .f32⟩ : BufTy).Contents (Elt F)),
    unary main_v54 main_v90 (broadcastInDim S1700000x1 ![0] bcast_S1700000_S1700000x1_0 : (⟨S1700000, .i32⟩ : BufTy).Contents (Elt F) → (⟨S1700000x1, .i32⟩ : BufTy).Contents (Elt F)),
    ternary main_v89 main_v90 main_v88 main_v91 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    unary main_arg5 main_v92 (broadcastInDim S1x40 ![1] bcast_S40_S1x40_1 : (⟨S40, .f32⟩ : BufTy).Contents (Elt F) → (⟨S1x40, .f32⟩ : BufTy).Contents (Elt F)),
    unary main_v92 main_v93 (broadcastInDim S100000x40 ![0, 1] bcast_S1x40_S100000x40_0_1 : (⟨S1x40, .f32⟩ : BufTy).Contents (Elt F) → (⟨S100000x40, .f32⟩ : BufTy).Contents (Elt F)),
    binary main_v91 main_v93 main_v94 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call3_cst) (constant S_ .f32 0xFF800000#32),
    TRef.binary (TRef.of (T := ⟨S100000x40, .f32⟩) main_v94) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v94) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v95) subf ]

/-- The third stretch's first half: the second aggregation and its bias. -/
abbrev ops3a : List (HloOp τ sig (Elt F)) :=
  [ nullary main_c_17 (constantI S_ 32 0#32),
    unary main_c_17 main_v79 (broadcastInDim S1700000 ![] bcast_S_S1700000 : (⟨S_, .i32⟩ : BufTy).Contents (Elt F) → (⟨S1700000, .i32⟩ : BufTy).Contents (Elt F)),
    binary main_v51 main_v79 main_v80 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v81 (broadcastInDim S1700000 ![] bcast_S_S1700000 : (⟨S_, .i32⟩ : BufTy).Contents (Elt F) → (⟨S1700000, .i32⟩ : BufTy).Contents (Elt F)),
    binary main_v51 main_v81 main_v82 (addi : (⟨S1700000, .i32⟩ : BufTy).Contents (Elt F) → (⟨S1700000, .i32⟩ : BufTy).Contents (Elt F) → (⟨S1700000, .i32⟩ : BufTy).Contents (Elt F)),
    ternary main_v80 main_v82 main_v51 main_v83 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v83 main_v84 (broadcastInDim S1700000x1 ![0] bcast_S1700000_S1700000x1_0 : (⟨S1700000, .i32⟩ : BufTy).Contents (Elt F) → (⟨S1700000x1, .i32⟩ : BufTy).Contents (Elt F)),
    binary main_v78 main_v84 main_v85 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v77 main_v86 (broadcastInDim S1700000x1 ![0] bcast_S1700000_S1700000x1_0 : (⟨S1700000, .f32⟩ : BufTy).Contents (Elt F) → (⟨S1700000x1, .f32⟩ : BufTy).Contents (Elt F)),
    unary main_v86 main_v87 (broadcastInDim S1700000x40 ![0, 1] bcast_S1700000x1_S1700000x40_0_1 : (⟨S1700000x1, .f32⟩ : BufTy).Contents (Elt F) → (⟨S1700000x40, .f32⟩ : BufTy).Contents (Elt F)),
    binary main_v85 main_v87 main_v88 (mulf : (⟨S1700000x40, .f32⟩ : BufTy).Contents (Elt F) → (⟨S1700000x40, .f32⟩ : BufTy).Contents (Elt F) → (⟨S1700000x40, .f32⟩ : BufTy).Contents (Elt F)),
    nullary main_cst_19 (constant S_ .f32 0x00000000#32),
    unary main_cst_19 main_v89 (broadcastInDim S100000x40 ![] bcast_S_S100000x40 : (⟨S_, .f32⟩ : BufTy).Contents (Elt F) → (⟨S100000x40, .f32⟩ : BufTy).Contents (Elt F)),
    unary main_v54 main_v90 (broadcastInDim S1700000x1 ![0] bcast_S1700000_S1700000x1_0 : (⟨S1700000, .i32⟩ : BufTy).Contents (Elt F) → (⟨S1700000x1, .i32⟩ : BufTy).Contents (Elt F)),
    ternary main_v89 main_v90 main_v88 main_v91 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    unary main_arg5 main_v92 (broadcastInDim S1x40 ![1] bcast_S40_S1x40_1 : (⟨S40, .f32⟩ : BufTy).Contents (Elt F) → (⟨S1x40, .f32⟩ : BufTy).Contents (Elt F)),
    unary main_v92 main_v93 (broadcastInDim S100000x40 ![0, 1] bcast_S1x40_S100000x40_0_1 : (⟨S1x40, .f32⟩ : BufTy).Contents (Elt F) → (⟨S100000x40, .f32⟩ : BufTy).Contents (Elt F)),
    binary main_v91 main_v93 main_v94 (addf : (⟨S100000x40, .f32⟩ : BufTy).Contents (Elt F) → (⟨S100000x40, .f32⟩ : BufTy).Contents (Elt F) → (⟨S100000x40, .f32⟩ : BufTy).Contents (Elt F)) ]

/-- The third stretch's second half: the row operation. -/
abbrev ops3b : List (HloOp τ sig (Elt F)) :=
  [ TRef.nullary (TRef.of (T := ⟨S_, .f32⟩) main_call3_cst) (constant S_ .f32 0xFF800000#32),
    TRef.binary (TRef.of (T := ⟨S100000x40, .f32⟩) main_v94) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v94) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v95) subf ]

theorem ops_split : (ops : List (HloOp τ sig (Elt F))) = ops1 ++ (ops2 ++ ops3) := rfl
theorem ops3_split : (ops3 : List (HloOp τ sig (Elt F))) = ops3a ++ ops3b := rfl

/-- Running a line made of two pieces is running the second from what the first leaves. -/
theorem after_append (l1 l2 : List (HloOp τ sig (Elt F))) (V : Valuation τ sig (Elt F)) :
    after (l1 ++ l2) V = after l2 (after l1 V) := by
  induction l1 generalizing V with
  | nil => rfl
  | cons op l ih => exact ih (op.result V)

variable (Wa : Valuation τ sig (Elt F))

/-! ### The first stretch -/

theorem s1_h : after ops1 Wa (Proc.devRef .tc main_v30)
    = Host.dotGeneral dot_S100000x256_S256x128_S100000x128_1_0_0_1_n_n none (Wa (Proc.devRef .tc main_arg0)) (Wa (Proc.devRef .tc main_arg2)) := by
  simp only [ops1]
  after_results_simp
theorem s1_src : after ops1 Wa (Proc.devRef .tc main_v3) = Cert.Gcn.srcOf (F := F) (Wa (Proc.devRef .tc main_arg1)) := by
  simp only [ops1]
  after_results_simp
  rfl
theorem s1_dst : after ops1 Wa (Proc.devRef .tc main_v6) = Cert.Gcn.dstOf (F := F) (Wa (Proc.devRef .tc main_arg1)) := by
  simp only [ops1]
  after_results_simp
  rfl
theorem s1_norm : after ops1 Wa (Proc.devRef .tc main_v29)
    = Cert.Gcn.normOf (F := F) (Cert.Gcn.srcOf (F := F) (Wa (Proc.devRef .tc main_arg1))) (Cert.Gcn.dstOf (F := F) (Wa (Proc.devRef .tc main_arg1))) := by
  simp only [ops1]
  after_results_simp
  rfl
theorem s1_arg0 : after ops1 Wa (Proc.devRef .tc main_arg0) = Wa (Proc.devRef .tc main_arg0) := by
  simp only [ops1]
  after_results_simp
theorem s1_arg1 : after ops1 Wa (Proc.devRef .tc main_arg1) = Wa (Proc.devRef .tc main_arg1) := by
  simp only [ops1]
  after_results_simp
theorem s1_arg2 : after ops1 Wa (Proc.devRef .tc main_arg2) = Wa (Proc.devRef .tc main_arg2) := by
  simp only [ops1]
  after_results_simp
theorem s1_arg3 : after ops1 Wa (Proc.devRef .tc main_arg3) = Wa (Proc.devRef .tc main_arg3) := by
  simp only [ops1]
  after_results_simp
theorem s1_arg4 : after ops1 Wa (Proc.devRef .tc main_arg4) = Wa (Proc.devRef .tc main_arg4) := by
  simp only [ops1]
  after_results_simp
theorem s1_arg5 : after ops1 Wa (Proc.devRef .tc main_arg5) = Wa (Proc.devRef .tc main_arg5) := by
  simp only [ops1]
  after_results_simp

/-! ### The second stretch -/

theorem s2_h : after ops2 Wa (Proc.devRef .tc main_v78)
    = Host.dotGeneral dot_S100000x128_S128x40_S100000x40_1_0_0_1_n_n none
        (Cert.Gcn.relu128 (F := F) (Cert.Gcn.agg128 (F := F) (Wa (Proc.devRef .tc main_v30)) (Wa (Proc.devRef .tc main_v3)) (Wa (Proc.devRef .tc main_v6)) (Wa (Proc.devRef .tc main_v29)) (Wa (Proc.devRef .tc main_arg3))))
        (Wa (Proc.devRef .tc main_arg4)) := by
  simp only [ops2]
  after_results_simp
  rfl
theorem s2_src : after ops2 Wa (Proc.devRef .tc main_v51) = Cert.Gcn.srcOf (F := F) (Wa (Proc.devRef .tc main_arg1)) := by
  simp only [ops2]
  after_results_simp
  rfl
theorem s2_dst : after ops2 Wa (Proc.devRef .tc main_v54) = Cert.Gcn.dstOf (F := F) (Wa (Proc.devRef .tc main_arg1)) := by
  simp only [ops2]
  after_results_simp
  rfl
theorem s2_norm : after ops2 Wa (Proc.devRef .tc main_v77)
    = Cert.Gcn.normOf (F := F) (Cert.Gcn.srcOf (F := F) (Wa (Proc.devRef .tc main_arg1))) (Cert.Gcn.dstOf (F := F) (Wa (Proc.devRef .tc main_arg1))) := by
  simp only [ops2]
  after_results_simp
  rfl
theorem s2_arg0 : after ops2 Wa (Proc.devRef .tc main_arg0) = Wa (Proc.devRef .tc main_arg0) := by
  simp only [ops2]
  after_results_simp
theorem s2_arg1 : after ops2 Wa (Proc.devRef .tc main_arg1) = Wa (Proc.devRef .tc main_arg1) := by
  simp only [ops2]
  after_results_simp
theorem s2_arg2 : after ops2 Wa (Proc.devRef .tc main_arg2) = Wa (Proc.devRef .tc main_arg2) := by
  simp only [ops2]
  after_results_simp
theorem s2_arg3 : after ops2 Wa (Proc.devRef .tc main_arg3) = Wa (Proc.devRef .tc main_arg3) := by
  simp only [ops2]
  after_results_simp
theorem s2_arg4 : after ops2 Wa (Proc.devRef .tc main_arg4) = Wa (Proc.devRef .tc main_arg4) := by
  simp only [ops2]
  after_results_simp
theorem s2_arg5 : after ops2 Wa (Proc.devRef .tc main_arg5) = Wa (Proc.devRef .tc main_arg5) := by
  simp only [ops2]
  after_results_simp

/-! ### The third stretch -/

theorem s3a_y : after ops3a Wa (Proc.devRef .tc main_v94)
    = Cert.Gcn.agg40 (F := F) (Wa (Proc.devRef .tc main_v78)) (Wa (Proc.devRef .tc main_v51)) (Wa (Proc.devRef .tc main_v54)) (Wa (Proc.devRef .tc main_v77)) (Wa (Proc.devRef .tc main_arg5)) := by
  simp only [ops3a]
  after_results_simp
  rfl
theorem s3b_out : after ops3b Wa (Proc.devRef .tc main_v95) = Cert.Gcn.logSoftmaxRows (F := F) (Wa (Proc.devRef .tc main_v94)) := by
  simp only [ops3b]
  after_results_simp
  simp only [Cert.LibTypedRef.ofBuf_toBuf]
  rfl
theorem s3_out : after ops3 Wa (Proc.devRef .tc main_v95)
    = Cert.Gcn.logSoftmaxRows (F := F) (Cert.Gcn.agg40 (F := F) (Wa (Proc.devRef .tc main_v78)) (Wa (Proc.devRef .tc main_v51)) (Wa (Proc.devRef .tc main_v54)) (Wa (Proc.devRef .tc main_v77)) (Wa (Proc.devRef .tc main_arg5))) := by
  rw [ops3_split, after_append, s3b_out, s3a_y]
theorem s3_arg0 : after ops3 Wa (Proc.devRef .tc main_arg0) = Wa (Proc.devRef .tc main_arg0) := by
  simp only [ops3]
  after_results_simp
theorem s3_arg1 : after ops3 Wa (Proc.devRef .tc main_arg1) = Wa (Proc.devRef .tc main_arg1) := by
  simp only [ops3]
  after_results_simp
theorem s3_arg2 : after ops3 Wa (Proc.devRef .tc main_arg2) = Wa (Proc.devRef .tc main_arg2) := by
  simp only [ops3]
  after_results_simp
theorem s3_arg3 : after ops3 Wa (Proc.devRef .tc main_arg3) = Wa (Proc.devRef .tc main_arg3) := by
  simp only [ops3]
  after_results_simp
theorem s3_arg4 : after ops3 Wa (Proc.devRef .tc main_arg4) = Wa (Proc.devRef .tc main_arg4) := by
  simp only [ops3]
  after_results_simp
theorem s3_arg5 : after ops3 Wa (Proc.devRef .tc main_arg5) = Wa (Proc.devRef .tc main_arg5) := by
  simp only [ops3]
  after_results_simp

/-! ## The whole line -/

theorem kept_arg0 : after ops Wa (Proc.devRef .tc main_arg0) = Wa (Proc.devRef .tc main_arg0) := by
  rw [ops_split, after_append, after_append, s3_arg0, s2_arg0, s1_arg0]
theorem kept_arg1 : after ops Wa (Proc.devRef .tc main_arg1) = Wa (Proc.devRef .tc main_arg1) := by
  rw [ops_split, after_append, after_append, s3_arg1, s2_arg1, s1_arg1]
theorem kept_arg2 : after ops Wa (Proc.devRef .tc main_arg2) = Wa (Proc.devRef .tc main_arg2) := by
  rw [ops_split, after_append, after_append, s3_arg2, s2_arg2, s1_arg2]
theorem kept_arg3 : after ops Wa (Proc.devRef .tc main_arg3) = Wa (Proc.devRef .tc main_arg3) := by
  rw [ops_split, after_append, after_append, s3_arg3, s2_arg3, s1_arg3]
theorem kept_arg4 : after ops Wa (Proc.devRef .tc main_arg4) = Wa (Proc.devRef .tc main_arg4) := by
  rw [ops_split, after_append, after_append, s3_arg4, s2_arg4, s1_arg4]
theorem kept_arg5 : after ops Wa (Proc.devRef .tc main_arg5) = Wa (Proc.devRef .tc main_arg5) := by
  rw [ops_split, after_append, after_append, s3_arg5, s2_arg5, s1_arg5]

/-- The returned buffer after the whole line: the whole computation of the six arguments. -/
theorem out_eq : after ops Wa (Proc.devRef .tc main_v95)
    = Cert.Gcn.whole (F := F) (Wa (Proc.devRef .tc main_arg0)) (Wa (Proc.devRef .tc main_arg1)) (Wa (Proc.devRef .tc main_arg2)) (Wa (Proc.devRef .tc main_arg3)) (Wa (Proc.devRef .tc main_arg4)) (Wa (Proc.devRef .tc main_arg5)) := by
  rw [ops_split, after_append, after_append, s3_out, s2_h, s2_src, s2_dst, s2_norm, s2_arg5, s1_h, s1_src, s1_dst, s1_norm, s1_arg1, s1_arg3, s1_arg4, s1_arg5]
  rfl

/-- On every device, from any memory with zero counters: every weakly fair execution of @main terminates with the
    returned buffer at the whole computation of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95)
        = Cert.Gcn.whole (F := F) (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v95).trans (out_eq _),
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _)⟩)
    (run_seq scopedRefs_eq scopedSems_eq defs main (fun _ => ops) main_eq (fun _ => ops_sub) m ρ)

end Cert.ReferenceIdeal.RefRun

end
-- ==== Proof.lean ====
/-
  A two-layer graph convolution with a row log-softmax, computed two ways, is one function of its inputs over the
  extended reals.

  Both programs take node features x : [100000, 256], an edge list e : [2, 1600000], weights W₁ : [256, 128],
  b₁ : [128], W₂ : [128, 40], b₂ : [40] and return, row by row over 40 classes, the log-softmax of
      A·(relu(A·(x W₁) + b₁) W₂) + b₂ ,
  where A aggregates along the edges (with a self loop per node) with the symmetric weights deg^(-1/2)·deg^(-1/2).
  The edge lists, the degrees, the weights and the two aggregations are the SAME host operations in both programs.
  They differ in three places only:
    * x W₁ and h W₂ are taken by the kernel program 2000 rows at a time on the matrix unit (operands narrowed to bf16,
      a zero accumulator) and by the reference as one `dot_general`: at the extended reals a change of format is the
      identity and each entry is the same sum over the contracted index, block by block;
    * the row log-softmax is taken by the kernel program 5000 rows at a time (a lane maximum from −∞, exp, a lane sum,
      log) and by the reference on the whole array (a maximum-reduction from −∞, one more maximum with −∞, exp, a
      sum-reduction from 0, log): each entry is the same function of its row.
  No law that fails at an infinity is used (only re-indexing of sums, max with −∞, 0 + x), so the precondition is
  never opened. The kernel program's run is cut at the boundaries between its host lines and its three calls; the
  reference's run is its line of host operations; both end with the returned buffer at the same term `Cert.Gcn.whole`
  of the arguments (Proof/KernelValue.lean, Proof/RefRun.lean).
-/
import proofs.«141688_j6828998000936_1_alg».proof.Defs
import proofs.«141688_j6828998000936_1_alg».proof.Proof.Gen.Kernel
import proofs.«141688_j6828998000936_1_alg».proof.Proof.Gen.Kernel.Skeleton
import proofs.«141688_j6828998000936_1_alg».proof.Proof.Gen.Kernel.Launch
import proofs.«141688_j6828998000936_1_alg».proof.Proof.Gen.Kernel.Points
import proofs.«141688_j6828998000936_1_alg».proof.Proof.Gen.Kernel.Frame
import proofs.«141688_j6828998000936_1_alg».proof.Proof.Gen.KernelIdeal
import proofs.«141688_j6828998000936_1_alg».proof.Proof.Gen.KernelIdeal.Skeleton
import proofs.«141688_j6828998000936_1_alg».proof.Proof.Gen.KernelIdeal.Launch
import proofs.«141688_j6828998000936_1_alg».proof.Proof.Gen.KernelIdeal.Points
import proofs.«141688_j6828998000936_1_alg».proof.Proof.Gen.KernelIdeal.Frame
import proofs.«141688_j6828998000936_1_alg».proof.Proof.Gen.ReferenceIdeal
import proofs.«141688_j6828998000936_1_alg».proof.Proof.Gen.Pre_finite_inputs
import proofs.«141688_j6828998000936_1_alg».proof.Proof.KernelValue
import proofs.«141688_j6828998000936_1_alg».proof.Proof.RefRun
import Idealize.ShloMosaic.Adequacy
import Idealize.ShloMosaic.Init

noncomputable section

namespace Cert.Proof

open Idealize.ShloMosaic Idealize.SL.Sem Cert.Kernel

/-- The word-level program runs and keeps its arguments. -/
theorem frame_k : Cert.frame_Kernel := fun m ρ _ => Cert.Kernel.Gen.frame m ρ

/-- The idealized program runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- From memories agreeing on the arguments both programs end with the returned buffer at the whole computation of
    those arguments. -/
theorem algebraic : Cert.algebraic_KernelIdeal_ReferenceIdeal := by
  intro m ρ m' ρ' _ hagree
  refine ⟨fun c => Cert.Gcn.whole (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), Cert.KernelIdeal.Whole.run_value m ρ, ?_⟩
  refine (θ_run Cert.ReferenceIdeal.defs _ _).mono (fun _ h c => ⟨(h c).1.trans ?_, (h c).2⟩) (Cert.ReferenceIdeal.RefRun.run (F := Ideal) m' ρ')
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
